-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S1024x512 .f32) (main_arg15 : FVec F S512 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S512 .f32) (main_arg12 : FVec F S1024x512 .f32) (main_arg13 : FVec F S512 .f32) (main_arg14 : FVec F S1024x512 .f32) (main_arg15 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_arg15 main_v48 main_v49 main_v50

def fn_part1 {F : FTy → Type} [FloatOps F] (main_arg4 : FVec F S1024x512 .f32) (main_arg5 : FVec F S512 .f32) (main_arg6 : FVec F S1024x512 .f32) (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x512 .f32) (main_arg1 : FVec F S32768x512 .f32) (main_arg2 : FVec F S32768x512 .f32) (main_arg3 : FVec F S32768x512 .f32) (main_arg4 : FVec F S1024x512 .f32) (main_arg5 : FVec F S512 .f32) (main_arg6 : FVec F S1024x512 .f32) (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x2560 : Shape := ⟨2, ![512, 2560]⟩
abbrev S2560 : Shape := ⟨1, ![2560]⟩
abbrev S1x2560 : Shape := ⟨2, ![1, 2560]⟩
abbrev S1x512 : Shape := ⟨2, ![1, 512]⟩
abbrev S1024x2560 : Shape := ⟨2, ![1024, 2560]⟩

abbrev nBuf : Space → Nat
  | .hbm => 36
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x2560, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x2560, .f32⟩
  | .hbm, ⟨28, _⟩ => ⟨S2560, .f32⟩
  | .hbm, ⟨29, _⟩ => ⟨S1x2560, .f32⟩
  | .hbm, ⟨30, _⟩ => ⟨S512x512, .f32⟩
  | .hbm, ⟨31, _⟩ => ⟨S512x512, .f32⟩
  | .hbm, ⟨32, _⟩ => ⟨S1x512, .f32⟩
  | .hbm, ⟨33, _⟩ => ⟨S32768x512, .f32⟩
  | .hbm, ⟨34, _⟩ => ⟨S32768x512, .f32⟩
  | .hbm, ⟨35, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x2560, .f32⟩
  | .local _ .vmem, ⟨9, _⟩ => ⟨S512x2560, .f32⟩
  | .local _ .vmem, ⟨10, _⟩ => ⟨S1x2560, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S1024x512_S512x512_0_0 : S1024x512.Slices ![0, 0] S512x512
  concatenates_S512x512_S512x512_S512x512_S512x512_S512x512_S512x2560_d1 : Shape.Concatenates [S512x512, S512x512, S512x512, S512x512, S512x512] S512x2560 1
  slices_S1024x512_S512x512_512_0 : S1024x512.Slices ![512, 0] S512x512
  concatenates_S512_S512_S512_S512_S512_S2560_d0 : Shape.Concatenates [S512, S512, S512, S512, S512] S2560 0
  shapeCasts_S2560_S1x2560 : S2560.ShapeCasts S1x2560
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  slices_S1024x2560_o0_0_S1024x512 : S1024x2560.Slices ![0, 0] S1024x512
  slices_S1024x2560_o0_512_S1024x512 : S1024x2560.Slices ![0, 512] S1024x512
  slices_S1024x2560_o0_1024_S1024x512 : S1024x2560.Slices ![0, 1024] S1024x512
  slices_S1024x2560_o0_1536_S1024x512 : S1024x2560.Slices ![0, 1536] S1024x512
  slices_S1024x2560_o0_2048_S1024x512 : S1024x2560.Slices ![0, 2048] S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x2560_S1024x2560_1_0_0_1_n_n_wf : DotDims.WF S1024x512 S512x2560 S1024x2560 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2560.size a ≤ S512x2560.size a
  hwx0_4 : ∀ i : grid0.Coords, EltTy.bits .f32 = 32 ∨ (Rect.block (s := S512x2560) S512x2560.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2560.size a ≤ S512x2560.size a
  hwx0_5 : ∀ i : grid0.Coords, EltTy.bits .f32 = 32 ∨ (Rect.block (s := S512x2560) S512x2560.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2560.size a ≤ S1x2560.size a
  hwx0_6 : ∀ i : grid0.Coords, EltTy.bits .f32 = 32 ∨ (Rect.block (s := S1x2560) S1x2560.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S32768x512.size a
  hwx0_10 : ∀ i : grid0.Coords, EltTy.bits .f32 = 32 ∨ (Rect.block (s := S32768x512) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S32768x512.size a
  hwx0_11 : ∀ i : grid0.Coords, EltTy.bits .f32 = 32 ∨ (Rect.block (s := S32768x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S32768x512.size a
  hwx0_12 : ∀ i : grid0.Coords, EltTy.bits .f32 = 32 ∨ (Rect.block (s := S32768x512) S1024x512.size (cc0_transform_12 i) (hinb0_12 i)).WholeWords (EltTy.packing .f32)

variable [Facts₀]

def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x2560.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_1) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17_2) S1024x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S512 : Shape := ⟨1, ![512]⟩
abbrev S32768x1024 : Shape := ⟨2, ![32768, 1024]⟩
abbrev S1024x2560 : Shape := ⟨2, ![1024, 2560]⟩
abbrev S2560 : Shape := ⟨1, ![2560]⟩
abbrev S32768x2560 : Shape := ⟨2, ![32768, 2560]⟩
abbrev S1x2560 : Shape := ⟨2, ![1, 2560]⟩
abbrev S_ : Shape := ⟨0, ![]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S512, .f32⟩
  | .hbm, ⟨16, _⟩ => ⟨S32768x1024, .f32⟩
  | .hbm, ⟨17, _⟩ => ⟨S1024x2560, .f32⟩
  | .hbm, ⟨18, _⟩ => ⟨S2560, .f32⟩
  | .hbm, ⟨19, _⟩ => ⟨S32768x2560, .f32⟩
  | .hbm, ⟨20, _⟩ => ⟨S1x2560, .f32⟩
  | .hbm, ⟨21, _⟩ => ⟨S32768x2560, .f32⟩
  | .hbm, ⟨22, _⟩ => ⟨S32768x2560, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x1024, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  concatenates_S1024x512_S1024x512_S1024x512_S1024x512_S1024x512_S1024x2560_d1 : Shape.Concatenates [S1024x512, S1024x512, S1024x512, S1024x512, S1024x512] S1024x2560 1
  concatenates_S512_S512_S512_S512_S512_S2560_d0 : Shape.Concatenates [S512, S512, S512, S512, S512] S2560 0
  bcast_S2560_S1x2560_1 : S2560.BroadcastsInDim S1x2560 (![1] : Fin 1 → Fin S1x2560.rank)
  bcast_S1x2560_S32768x2560_0_1 : S1x2560.BroadcastsInDim S32768x2560 (![0, 1] : Fin 2 → Fin S32768x2560.rank)
  slices_S32768x2560_S32768x512_0_0 : S32768x2560.Slices ![0, 0] S32768x512
  slices_S32768x2560_S32768x512_0_512 : S32768x2560.Slices ![0, 512] S32768x512
  slices_S32768x2560_S32768x512_0_1024 : S32768x2560.Slices ![0, 1024] S32768x512
  slices_S32768x2560_S32768x512_0_1536 : S32768x2560.Slices ![0, 1536] S32768x512
  slices_S32768x2560_S32768x512_0_2048 : S32768x2560.Slices ![0, 2048] S32768x512
  bcast_S_S32768x512 : S_.BroadcastsInDim S32768x512 (![] : Fin 0 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x1024_S1024x2560_S32768x2560_1_0_0_1_n_n_wf : DotDims.WF S32768x1024 S1024x2560 S32768x2560 [1] [0] [0] [1] [] []
  dot_S32768x1024_S1024x512_S32768x512_1_0_0_1_n_n_wf : DotDims.WF S32768x1024 S1024x512 S32768x512 [1] [0] [0] [1] [] []

variable [Facts₀]

def dot_S32768x1024_S1024x2560_S32768x2560_1_0_0_1_n_n : DotDims S32768x1024 S1024x2560 S32768x2560 where
  lhsContracting := [1]
  rhsContracting := [0]
  lhsNonContracting := [0]
  rhsNonContracting := [1]
  lhsBatch := []
  rhsBatch := []
  wf := dot_S32768x1024_S1024x2560_S32768x2560_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.RegionIdeal.lean ====
/-
  The one region of the program, up to its proof data.

  Before the region the host cuts each of the six weights into its upper and lower 512 rows, lays the five gates' upper
  halves side by side (and the lower halves, and the biases end to end) and turns the two bias vectors into rows; no
  host operation writes an argument array, so the region finds all sixteen as launched (`V_main_argK`). The region
  walks 32 blocks of 1024 batch rows. At every block the body reads ten input blocks whole — four blocks of batch rows
  and six arrays that do not move with the block — and overwrites three output blocks whole, so what each output's
  staging buffer holds after the body is one whole-buffer store of a pure function of the ten input blocks
  (`out0_10`, `out0_11`, `out0_12`: the new hidden rows and the two renewed cell states). `dats` records exactly that:
  the arrays as the region finds them, each input buffer at its block, each output buffer at that function of the
  input blocks; nothing else is held and nothing is owed. `frame_of` turns a run to the pipeline's post into the
  statement that the sixteen argument arrays end unchanged: the four batch arrays are input windows' arrays, which the
  pipeline only reads, and the twelve weights and biases are touched by no window at all.
-/
import proofs.«134388_j1967095022176_2_alg».proof.Proof.Gen.KernelIdeal.Launch
import proofs.«134388_j1967095022176_2_alg».proof.Proof.Gen.KernelIdeal.Skeleton
import proofs.«134388_j1967095022176_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the seventeen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or the
    block has not moved since it was fetched, for any proof data over the region-entry arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## What the body reads and writes -/

/-- The whole of a block of batch rows, of the joined gate weights, of the joined biases, of a half of the last
    weight, of the last bias: the only rectangles the body touches. -/
abbrev rRows : Rect S1024x512 := Rect.unit (s := S1024x512) ![0, 0] S1024x512.size inb_S1024x512_S1024x512_0_0
abbrev rJoined : Rect S512x2560 := Rect.unit (s := S512x2560) ![0, 0] S512x2560.size inb_S512x2560_S512x2560_0_0
abbrev rBiases : Rect S1x2560 := Rect.unit (s := S1x2560) ![0, 0] S1x2560.size inb_S1x2560_S1x2560_0_0
abbrev rHalf : Rect S512x512 := Rect.unit (s := S512x512) ![0, 0] S512x512.size inb_S512x512_S512x512_0_0
abbrev rBias : Rect S1x512 := Rect.unit (s := S1x512) ![0, 0] S1x512.size inb_S1x512_S1x512_0_0

/-- The new hidden rows' buffer after the body: one whole-buffer store of the output gate times the hyperbolic
    tangent of the renewed states against the last weight. -/
def out0_10 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay1 (k0_pay5 (View.ld x0 rRows) (View.ld x1 rRows) (View.ld x4 rJoined) (View.ld x5 rJoined) (View.ld x6 rBiases)) (k0_pay8 (View.ld x0 rRows) (View.ld x1 rRows) (View.ld x2 rRows) (View.ld x4 rJoined) (View.ld x5 rJoined) (View.ld x6 rBiases) (View.ld x7 rHalf)) (k0_pay9 (View.ld x0 rRows) (View.ld x1 rRows) (View.ld x3 rRows) (View.ld x4 rJoined) (View.ld x5 rJoined) (View.ld x6 rBiases) (View.ld x8 rHalf)) (View.ld x9 rBias)⟩]

/-- The first renewed cell state's buffer after the body. -/
def out0_11 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay6 (View.ld x0 rRows) (View.ld x1 rRows) (View.ld x2 rRows) (View.ld x4 rJoined) (View.ld x5 rJoined) (View.ld x6 rBiases)⟩]

/-- The second renewed cell state's buffer after the body. -/
def out0_12 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay7 (View.ld x0 rRows) (View.ld x1 rRows) (View.ld x3 rRows) (View.ld x4 rJoined) (View.ld x5 rJoined) (View.ld x6 rBiases)⟩]

/-- One whole-buffer store covers the buffer. -/
theorem cover_rows (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.KernelIdeal.Region

end
-- ==== Proof.BodyIdeal.lean ====
/-
  The body at a block, and the run of the whole program.

  Handed its ten input buffers at known contents and its three output buffers at any contents, the body runs to the
  end without a fault, leaves the inputs as they were and each output buffer at one whole-buffer store of a pure
  function of the inputs (`sound_kernel`): it only loads whole buffers, computes, and stores whole buffers. At every
  block the pipeline hands it exactly that — each input buffer holds its window's block — so the pipeline's body
  obligation holds at every point, and the library's launch theorem turns it into a run of the whole program: every
  weakly fair execution ends, nothing faults, every window's array ends at what the proof data says and every other
  buffer as the region found it. Read at the sixteen argument arrays, that is the frame.
-/
import proofs.«134388_j1967095022176_2_alg».proof.Proof.RegionIdeal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S512x2560 .f32) (harg5 : arg5.IsWhole) (arg6 : Memref sig .tc .vmem S512x2560 .f32) (harg6 : arg6.IsWhole) (arg7 : Memref sig .tc .vmem S1x2560 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole)
    (x0 x1 x2 x3 : Vec F S1024x512 .f32) (x4 x5 : Vec F S512x2560 .f32) (x6 : Vec F S1x2560 .f32) (x7 x8 : Vec F S512x512 .f32) (x9 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__mslstm_kernel i arg1 harg1 arg2 harg2 arg3 harg3 arg4 harg4 arg5 harg5 arg6 harg6 arg7 harg7 arg8 harg8 arg9 harg9 arg10 harg10 arg11 harg11 arg12 harg12 arg13 harg13) K := by
  simp only [cc0__mslstm_kernel_eq_skeleton]; unfold cc0__mslstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_rows _)
  isplitl [H11]
  · iexists _; isplitr
    swap; · iexact H11
    ipureintro
    exact View.read_writes_eq_canon _ _ _ (cover_rows _)
  iexists _; isplitr
  swap; · iexact H12
  ipureintro
  exact View.read_writes_eq_canon _ _ _ (cover_rows _)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of the program ends, nothing faults, and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Region

end
-- ==== Proof.RegionBits.lean ====
/-
  The one region of the program, up to its proof data.

  Before the region the host cuts each of the six weights into its upper and lower 512 rows, lays the five gates' upper
  halves side by side (and the lower halves, and the biases end to end) and turns the two bias vectors into rows; no
  host operation writes an argument array, so the region finds all sixteen as launched (`V_main_argK`). The region
  walks 32 blocks of 1024 batch rows. At every block the body reads ten input blocks whole — four blocks of batch rows
  and six arrays that do not move with the block — and overwrites three output blocks whole, so what each output's
  staging buffer holds after the body is one whole-buffer store of a pure function of the ten input blocks
  (`out0_10`, `out0_11`, `out0_12`: the new hidden rows and the two renewed cell states). `dats` records exactly that:
  the arrays as the region finds them, each input buffer at its block, each output buffer at that function of the
  input blocks; nothing else is held and nothing is owed. `frame_of` turns a run to the pipeline's post into the
  statement that the sixteen argument arrays end unchanged: the four batch arrays are input windows' arrays, which the
  pipeline only reads, and the twelve weights and biases are touched by no window at all.
-/
import proofs.«134388_j1967095022176_2_alg».proof.Proof.Gen.Kernel.Launch
import proofs.«134388_j1967095022176_2_alg».proof.Proof.Gen.Kernel.Skeleton
import proofs.«134388_j1967095022176_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the seventeen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or the
    block has not moved since it was fetched, for any proof data over the region-entry arrays whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## What the body reads and writes -/

/-- The whole of a block of batch rows, of the joined gate weights, of the joined biases, of a half of the last
    weight, of the last bias: the only rectangles the body touches. -/
abbrev rRows : Rect S1024x512 := Rect.unit (s := S1024x512) ![0, 0] S1024x512.size inb_S1024x512_S1024x512_0_0
abbrev rJoined : Rect S512x2560 := Rect.unit (s := S512x2560) ![0, 0] S512x2560.size inb_S512x2560_S512x2560_0_0
abbrev rBiases : Rect S1x2560 := Rect.unit (s := S1x2560) ![0, 0] S1x2560.size inb_S1x2560_S1x2560_0_0
abbrev rHalf : Rect S512x512 := Rect.unit (s := S512x512) ![0, 0] S512x512.size inb_S512x512_S512x512_0_0
abbrev rBias : Rect S1x512 := Rect.unit (s := S1x512) ![0, 0] S1x512.size inb_S1x512_S1x512_0_0

/-- The new hidden rows' buffer after the body: one whole-buffer store of the output gate times the hyperbolic
    tangent of the renewed states against the last weight. -/
def out0_10 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay1 (k0_pay5 (View.ld x0 rRows) (View.ld x1 rRows) (View.ld x4 rJoined) (View.ld x5 rJoined) (View.ld x6 rBiases)) (k0_pay8 (View.ld x0 rRows) (View.ld x1 rRows) (View.ld x2 rRows) (View.ld x4 rJoined) (View.ld x5 rJoined) (View.ld x6 rBiases) (View.ld x7 rHalf)) (k0_pay9 (View.ld x0 rRows) (View.ld x1 rRows) (View.ld x3 rRows) (View.ld x4 rJoined) (View.ld x5 rJoined) (View.ld x6 rBiases) (View.ld x8 rHalf)) (View.ld x9 rBias)⟩]

/-- The first renewed cell state's buffer after the body. -/
def out0_11 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay6 (View.ld x0 rRows) (View.ld x1 rRows) (View.ld x2 rRows) (View.ld x4 rJoined) (View.ld x5 rJoined) (View.ld x6 rBiases)⟩]

/-- The second renewed cell state's buffer after the body. -/
def out0_12 (x0 x1 x2 x3 : Vec F S1024x512 .f32) (x4 x5 : Vec F S512x2560 .f32) (x6 : Vec F S1x2560 .f32) (x7 x8 : Vec F S512x512 .f32) (x9 : Vec F S1x512 .f32) : Vec F S1024x512 .f32 :=
  View.canon [⟨rRows, k0_pay7 (View.ld x0 rRows) (View.ld x1 rRows) (View.ld x3 rRows) (View.ld x4 rJoined) (View.ld x5 rJoined) (View.ld x6 rBiases)⟩]

/-- One whole-buffer store covers the buffer. -/
theorem cover_rows (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.Kernel.Region

end
-- ==== Proof.BodyBits.lean ====
/-
  The body at a block, and the run of the whole program.

  Handed its ten input buffers at known contents and its three output buffers at any contents, the body runs to the
  end without a fault, leaves the inputs as they were and each output buffer at one whole-buffer store of a pure
  function of the inputs (`sound_kernel`): it only loads whole buffers, computes, and stores whole buffers. At every
  block the pipeline hands it exactly that — each input buffer holds its window's block — so the pipeline's body
  obligation holds at every point, and the library's launch theorem turns it into a run of the whole program: every
  weakly fair execution ends, nothing faults, every window's array ends at what the proof data says and every other
  buffer as the region found it. Read at the sixteen argument arrays, that is the frame.
-/
import proofs.«134388_j1967095022176_2_alg».proof.Proof.RegionBits

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S512x2560 .f32) (harg5 : arg5.IsWhole) (arg6 : Memref sig .tc .vmem S512x2560 .f32) (harg6 : arg6.IsWhole) (arg7 : Memref sig .tc .vmem S1x2560 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole)
    (x0 x1 x2 x3 : Vec F S1024x512 .f32) (x4 x5 : Vec F S512x2560 .f32) (x6 : Vec F S1x2560 .f32) (x7 x8 : Vec F S512x512 .f32) (x9 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__mslstm_kernel i arg1 harg1 arg2 harg2 arg3 harg3 arg4 harg4 arg5 harg5 arg6 harg6 arg7 harg7 arg8 harg8 arg9 harg9 arg10 harg10 arg11 harg11 arg12 harg12 arg13 harg13) K := by
  simp only [cc0__mslstm_kernel_eq_skeleton]; unfold cc0__mslstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_rows _)
  isplitl [H11]
  · iexists _; isplitr
    swap; · iexact H11
    ipureintro
    exact View.read_writes_eq_canon _ _ _ (cover_rows _)
  iexists _; isplitr
  swap; · iexact H12
  ipureintro
  exact View.read_writes_eq_canon _ _ _ (cover_rows _)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of the program ends, nothing faults, and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Region

end
-- ==== Proof.Frames.lean ====
/-
  The three frames and the idealization's ledger.

  Both kernel programs — the one read at machine words and the one read at the extended reals — are the same text, and
  the region's run is proved once for any reading of the floats; each frame is that run read at the sixteen argument
  arrays. The reference has no region: it is a straight line of host operations, whose run ends with every result at
  its operations' composed value and every argument as launched; dropping the three results leaves its frame. The
  idealization pass rewrote nothing in this kernel, so there is nothing to preserve.
-/
import proofs.«134388_j1967095022176_2_alg».proof.Defs
import proofs.«134388_j1967095022176_2_alg».proof.Proof.BodyIdeal
import proofs.«134388_j1967095022176_2_alg».proof.Proof.BodyBits
import proofs.«134388_j1967095022176_2_alg».proof.Proof.Gen.ReferenceIdeal.Run
import proofs.«134388_j1967095022176_2_alg».proof.Proof.Gen.Kernel
import proofs.«134388_j1967095022176_2_alg».proof.Proof.Gen.KernelIdeal
import proofs.«134388_j1967095022176_2_alg».proof.Proof.Gen.ReferenceIdeal
import proofs.«134388_j1967095022176_2_alg».proof.Proof.Gen.Pre_finite_inputs

noncomputable section

namespace Cert.Proof.Frames

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

end Cert.Proof.Frames

end
-- ==== Proof.Cell.lean ====
/-
  The recurrent cell as mathematics over the extended reals.

  A batch of 32768 rows. Each of five gates has a weight of 1024 rows by 512 columns and a bias of 512 entries; the
  weight's upper 512 rows meet the input row `x`, its lower 512 rows meet the hidden row `h`:

    pre W b r q = (∑ k, x r k · W (upper k) q) + (∑ k, h r k · W (lower k) q) + b q.

  Three gates pass through the logistic function (`i`, `f`, `o`), two through the hyperbolic tangent (`g1`, `g2`). The two
  cell states are renewed as `f · c + i · g1` and `f · C + i · g2`; the new hidden row is `o · tanh (mlp)`, where `mlp`
  pairs the renewed states with the upper and the lower half of one more weight, plus one more bias. Every operation is
  the extended reals' own: nothing is assumed finite, since the only laws used later are that a sum over 1024 terms
  is the sum of its two halves and that zero is neutral.
-/
import Idealize.ShloMosaic.PureOps.Ideal
import Idealize.ShloMosaic.Lib.ValueIdx

noncomputable section

namespace Cert.Cell

open Idealize.ShloMosaic Idealize.ShloMosaic.ValueIdx

/-- A batch-by-feature array, a gate's weight, a gate's bias. -/
abbrev Rows := FVec Ideal (⟨2, ![32768, 512]⟩ : Shape) .f32
abbrev Wgt := FVec Ideal (⟨2, ![1024, 512]⟩ : Shape) .f32
abbrev Bias := FVec Ideal (⟨1, ![512]⟩ : Shape) .f32

/-- Row `k` of a weight's upper half, and of its lower half. -/
def up (k : Fin 512) : Fin 1024 := ⟨k.val, by omega⟩
def dn (k : Fin 512) : Fin 1024 := ⟨512 + k.val, by omega⟩

/-- The sixteen arrays the cell is a function of. -/
structure Args where
  x : Rows
  h : Rows
  c : Rows
  C : Rows
  Wi : Wgt
  bi : Bias
  Wf : Wgt
  bf : Bias
  Wo : Wgt
  bo : Bias
  Wg1 : Wgt
  bg1 : Bias
  Wg2 : Wgt
  bg2 : Bias
  Wm : Wgt
  bm : Bias

/-- A gate before its nonlinearity, at row `r` and column `q`. -/
def pre (x h : Rows) (W : Wgt) (b : Bias) (r : Fin 32768) (q : Fin 512) : EReal :=
  (∑ k : Fin 512, x (ix2 r k) * W (ix2 (up k) q)) + (∑ k : Fin 512, h (ix2 r k) * W (ix2 (dn k) q)) + b (ix1 q)

def gi (A : Args) (r : Fin 32768) (q : Fin 512) : EReal := Ideal.logistic (pre A.x A.h A.Wi A.bi r q)
def gf (A : Args) (r : Fin 32768) (q : Fin 512) : EReal := Ideal.logistic (pre A.x A.h A.Wf A.bf r q)
def go (A : Args) (r : Fin 32768) (q : Fin 512) : EReal := Ideal.logistic (pre A.x A.h A.Wo A.bo r q)
def g1 (A : Args) (r : Fin 32768) (q : Fin 512) : EReal := Ideal.tanh (pre A.x A.h A.Wg1 A.bg1 r q)
def g2 (A : Args) (r : Fin 32768) (q : Fin 512) : EReal := Ideal.tanh (pre A.x A.h A.Wg2 A.bg2 r q)

/-- The two renewed cell states. -/
def newc (A : Args) (r : Fin 32768) (q : Fin 512) : EReal := gf A r q * A.c (ix2 r q) + gi A r q * g1 A r q
def newC (A : Args) (r : Fin 32768) (q : Fin 512) : EReal := gf A r q * A.C (ix2 r q) + gi A r q * g2 A r q

/-- The renewed states against the two halves of the last weight, plus the last bias. -/
def mlp (A : Args) (r : Fin 32768) (q : Fin 512) : EReal :=
  (∑ k : Fin 512, newc A r k * A.Wm (ix2 (up k) q)) + (∑ k : Fin 512, newC A r k * A.Wm (ix2 (dn k) q)) + A.bm (ix1 q)

/-- The new hidden row. -/
def newh (A : Args) (r : Fin 32768) (q : Fin 512) : EReal := go A r q * Ideal.tanh (mlp A r q)

/-- The three results as whole arrays. -/
def outH (A : Args) : Rows := fun j => newh A (j 0) (j 1)
def outc (A : Args) : Rows := fun j => newc A (j 0) (j 1)
def outC (A : Args) : Rows := fun j => newC A (j 0) (j 1)

theorem outH_ix2 (A : Args) (r : Fin 32768) (q : Fin 512) : outH A (ix2 r q) = newh A r q := rfl
theorem outc_ix2 (A : Args) (r : Fin 32768) (q : Fin 512) : outc A (ix2 r q) = newc A r q := rfl
theorem outC_ix2 (A : Args) (r : Fin 32768) (q : Fin 512) : outC A (ix2 r q) = newC A r q := rfl

end Cert.Cell

end
-- ==== Proof.Algebraic.lean ====
/-
  The two idealized programs end with equal results.

  Run from memories that agree on the sixteen arguments, the kernel program ends with its three result arrays at the
  cell's three whole-array functions of its arguments (the region's run, then each output array assembled from the
  blocks the 32 points wrote), and the reference ends with its three results at the same three functions of its own
  arguments (its straight-line run, then its operations read index by index). The arguments agree, so the results
  are equal, element by element, as extended reals; both runs leave the arguments as launched. The facts about each
  side enter here as hypotheses and are supplied where the certificate is assembled.
-/
import proofs.«134388_j1967095022176_2_alg».proof.Defs
import proofs.«134388_j1967095022176_2_alg».proof.Proof.Cell
import proofs.«134388_j1967095022176_2_alg».proof.Proof.BodyIdeal
import proofs.«134388_j1967095022176_2_alg».proof.Proof.Gen.ReferenceIdeal.Read
import proofs.«134388_j1967095022176_2_alg».proof.Proof.Gen.Kernel
import proofs.«134388_j1967095022176_2_alg».proof.Proof.Gen.KernelIdeal
import proofs.«134388_j1967095022176_2_alg».proof.Proof.Gen.ReferenceIdeal
import proofs.«134388_j1967095022176_2_alg».proof.Proof.Gen.Pre_finite_inputs

noncomputable section

namespace Cert.Proof.Alg

open Idealize.ShloMosaic Idealize.ShloMosaic.TcCoe Idealize.SL.Sem Cert.Cell

/-- The sixteen argument arrays of the kernel program as launched on core `c`. -/
def kernelArgs (m : (ℓ : Loc Cert.KernelIdeal.nD Cert.KernelIdeal.τ Cert.KernelIdeal.sig) → Buf (Elt Ideal) ℓ) (c : Dev Cert.KernelIdeal.nD) : Args :=
  ⟨m ((c.tc : Thread Cert.KernelIdeal.nD Cert.KernelIdeal.τ).loc Cert.KernelIdeal.main_arg0), m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15)⟩

section kernel
open Cert.KernelIdeal Cert.KernelIdeal.Gen Cert.KernelIdeal.Region

/-- The kernel program's run with its three result arrays named, given each output array after the last write-back. -/
theorem kernel_run (m : (ℓ : Loc nD τ sig) → Buf (Elt Ideal) ℓ) (ρ : Dev nD → PrngReg)
    (fh : ∀ c : Dev nD, (dats m 0 c).arrAt 10 cfg0.N = outH (kernelArgs m c))
    (fc : ∀ c : Dev nD, (dats m 0 c).arrAt 11 cfg0.N = outc (kernelArgs m c))
    (fC : ∀ c : Dev nD, (dats m 0 c).arrAt 12 cfg0.N = outC (kernelArgs m c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v17_0) = outH (kernelArgs m c)
      ∧ r.2.mem ((c.tc : Thread Cert.KernelIdeal.nD Cert.KernelIdeal.τ).loc Cert.KernelIdeal.main_v17_1) = outc (kernelArgs m c)
      ∧ r.2.mem ((c.tc : Thread Cert.KernelIdeal.nD Cert.KernelIdeal.τ).loc Cert.KernelIdeal.main_v17_2) = outC (kernelArgs m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run defs _ _).mono (fun _ h c => ⟨((h c).1 10).trans (fh c), ((h c).1 11).trans (fc c), ((h c).1 12).trans (fC c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run_main (F := Ideal) m ρ)

end kernel

section reference
open Cert.ReferenceIdeal Cert.ReferenceIdeal.Gen

/-- The reference's run with its three results at the cell's functions of ITS arguments, given its operations read
    index by index. -/
theorem reference_run (m' : (ℓ : Loc nD τ sig) → Buf (Elt Ideal) ℓ) (ρ' : Dev nD → PrngReg)
    (rH : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v44 (F := Ideal) x0 x1 x2 x3 x4 x5 x6 x7 x8 x9 x10 x11 x12 x13 x14 x15 = outH ⟨x0, x1, x2, x3, x4, x5, x6, x7, x8, x9, x10, x11, x12, x13, x14, x15⟩)
    (rc : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v34 (F := Ideal) x0 x1 x2 x4 x5 x6 x7 x8 x9 x10 x11 x12 x13 = outc ⟨x0, x1, x2, x3, x4, x5, x6, x7, x8, x9, x10, x11, x12, x13, x14, x15⟩)
    (rC : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v37 (F := Ideal) x0 x1 x3 x4 x5 x6 x7 x8 x9 x10 x11 x12 x13 = outC ⟨x0, x1, x2, x3, x4, x5, x6, x7, x8, x9, x10, x11, x12, x13, x14, x15⟩) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v44) = outH ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15)⟩
      ∧ r.2.mem ((c.tc : Thread Cert.ReferenceIdeal.nD Cert.ReferenceIdeal.τ).loc Cert.ReferenceIdeal.main_v34) = outc ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15)⟩
      ∧ r.2.mem ((c.tc : Thread Cert.ReferenceIdeal.nD Cert.ReferenceIdeal.τ).loc Cert.ReferenceIdeal.main_v37) = outC ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15)⟩
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run defs _ _).mono (fun _ h c => ⟨
      (h c).1.trans ((Cert.ReferenceIdeal.Read.val_main_v44_eq m' c).trans (rH _ _ _ _ _ _ _ _ _ _ _ _ _ _ _ _)),
      (h c).2.1.trans ((Cert.ReferenceIdeal.Read.val_main_v34_eq m' c).trans (rc _ _ _ (m' ((c.tc : Thread Cert.ReferenceIdeal.nD Cert.ReferenceIdeal.τ).loc Cert.ReferenceIdeal.main_arg3)) _ _ _ _ _ _ _ _ _ _ (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))),
      (h c).2.2.1.trans ((Cert.ReferenceIdeal.Read.val_main_v37_eq m' c).trans (rC _ _ (m' ((c.tc : Thread Cert.ReferenceIdeal.nD Cert.ReferenceIdeal.τ).loc Cert.ReferenceIdeal.main_arg2)) _ _ _ _ _ _ _ _ _ _ _ (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))),
      (h c).2.2.2⟩) (Cert.ReferenceIdeal.Value.run (F := Ideal) m' ρ')

end reference

/-- The claim, from the two sides' facts. -/
theorem algebraic
    (fh : ∀ (m : (ℓ : Loc Cert.KernelIdeal.nD Cert.KernelIdeal.τ Cert.KernelIdeal.sig) → Buf (Elt Ideal) ℓ) (c : Dev Cert.KernelIdeal.nD),
      (Cert.KernelIdeal.Region.dats m 0 c).arrAt 10 Cert.KernelIdeal.cfg0.N = outH (kernelArgs m c))
    (fc : ∀ (m : (ℓ : Loc Cert.KernelIdeal.nD Cert.KernelIdeal.τ Cert.KernelIdeal.sig) → Buf (Elt Ideal) ℓ) (c : Dev Cert.KernelIdeal.nD),
      (Cert.KernelIdeal.Region.dats m 0 c).arrAt 11 Cert.KernelIdeal.cfg0.N = outc (kernelArgs m c))
    (fC : ∀ (m : (ℓ : Loc Cert.KernelIdeal.nD Cert.KernelIdeal.τ Cert.KernelIdeal.sig) → Buf (Elt Ideal) ℓ) (c : Dev Cert.KernelIdeal.nD),
      (Cert.KernelIdeal.Region.dats m 0 c).arrAt 12 Cert.KernelIdeal.cfg0.N = outC (kernelArgs m c))
    (rH : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v44 (F := Ideal) x0 x1 x2 x3 x4 x5 x6 x7 x8 x9 x10 x11 x12 x13 x14 x15 = outH ⟨x0, x1, x2, x3, x4, x5, x6, x7, x8, x9, x10, x11, x12, x13, x14, x15⟩)
    (rc : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v34 (F := Ideal) x0 x1 x2 x4 x5 x6 x7 x8 x9 x10 x11 x12 x13 = outc ⟨x0, x1, x2, x3, x4, x5, x6, x7, x8, x9, x10, x11, x12, x13, x14, x15⟩)
    (rC : ∀ (x0 : Rows) (x1 : Rows) (x2 : Rows) (x3 : Rows) (x4 : Wgt) (x5 : Bias) (x6 : Wgt) (x7 : Bias) (x8 : Wgt) (x9 : Bias) (x10 : Wgt) (x11 : Bias) (x12 : Wgt) (x13 : Bias) (x14 : Wgt) (x15 : Bias), Cert.ReferenceIdeal.Read.val_main_v37 (F := Ideal) x0 x1 x3 x4 x5 x6 x7 x8 x9 x10 x11 x12 x13 = outC ⟨x0, x1, x2, x3, x4, x5, x6, x7, x8, x9, x10, x11, x12, x13, x14, x15⟩) :
    Cert.algebraic_KernelIdeal_ReferenceIdeal := by
  intro m ρ m' ρ' _ hagree
  refine ⟨fun c => outH (kernelArgs m c), fun c => outc (kernelArgs m c), fun c => outC (kernelArgs m c),
    kernel_run m ρ (fh m) (fc m) (fC m), ?_⟩
  refine (θ_run Cert.ReferenceIdeal.defs _ _).mono (fun _ h c => ?_) (reference_run m' ρ' rH rc rC)
  have e : (⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15)⟩ : Args) = kernelArgs m c := by
    unfold kernelArgs
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  obtain ⟨h44, h34, h37, hargs⟩ := h c
  exact ⟨h44.trans (congrArg outH e), h34.trans (congrArg outc e), h37.trans (congrArg outC e), hargs⟩

end Cert.Proof.Alg

end
-- ==== Proof.RefHalves.lean ====
/-
  Two facts about sums and about arrays joined from pieces, on which the one-product arrangement of the cell rests.

  (1) A sum of 1024 extended reals is the sum of its first 512 terms plus the sum of its last 512. The extended reals
      are a commutative additive monoid, so this needs nothing finite.
  (2) An array joined from pieces along an axis reads, at a coordinate that falls inside piece number `g`, that piece
      at the coordinate less the extents of the pieces before it. Here: two batch-by-512 arrays joined along the
      columns (column `k` below 512 is the first array's, column `512 + k` the second's); five 1024-by-512 weights joined
      along the columns and five biases joined end to end (column `512 g + q` is column `q` of weight number `g`).
-/
import proofs.«134388_j1967095022176_2_alg».proof.Proof.Cell
import Idealize.ShloMosaic.Lib.Pipeline.Value

noncomputable section

namespace Cert.RefCell

open Idealize.ShloMosaic Idealize.ShloMosaic.ValueIdx Cert.Cell
open scoped BigOperators

/-- A sum over 1024 terms is the sum over the upper half plus the sum over the lower half. -/
theorem sum_halves (f : Fin 1024 → EReal) :
    ∑ k : Fin 1024, f k = (∑ k : Fin 512, f (up k)) + ∑ k : Fin 512, f (dn k) :=
  (Fin.sum_univ_add (a := 512) (b := 512) f).trans
    (congrArg₂ (· + ·) (Finset.sum_congr rfl fun _ _ => congrArg f (Fin.ext rfl))
      (Finset.sum_congr rfl fun _ _ => congrArg f (Fin.ext rfl)))

/-- The shapes met: a batch-by-512 array and two of them side by side; a weight and five side by side; a bias and
    five end to end. -/
abbrev SR : Shape := ⟨2, ![32768, 512]⟩
abbrev SRR : Shape := ⟨2, ![32768, 1024]⟩
abbrev SW : Shape := ⟨2, ![1024, 512]⟩
abbrev SWW : Shape := ⟨2, ![1024, 2560]⟩
abbrev SB : Shape := ⟨1, ![512]⟩
abbrev SBB : Shape := ⟨1, ![2560]⟩

/-- Column `o + q` among 2560, for a piece that starts at column `o`. -/
def col (o : Nat) (q : Fin 512) (ho : o + 512 ≤ 2560 := by omega) : Fin 2560 := ⟨o + q.val, by omega⟩

/-- Two arrays side by side, read at a column of the first. -/
theorem join2_up (a b : Rows) (H : Shape.Concatenates [SR, SR] SRR 1) (r : Fin 32768) (k : Fin 512) :
    concatenate SRR 1 [⟨SR, a⟩, ⟨SR, b⟩] H (ix2 r (up k)) = a (ix2 r k) :=
  concatenate_pair_apply_left (t := SRR) (s₁ := SR) (s₂ := SR) (1 : Fin 2) a b H _ rfl (ix2 r k) (fun c => by
    match c with
    | ⟨0, _⟩ => rfl
    | ⟨1, _⟩ => rfl)

/-- Two arrays side by side, read at a column of the second. -/
theorem join2_dn (a b : Rows) (H : Shape.Concatenates [SR, SR] SRR 1) (r : Fin 32768) (k : Fin 512) :
    concatenate SRR 1 [⟨SR, a⟩, ⟨SR, b⟩] H (ix2 r (dn k)) = b (ix2 r k) :=
  concatenate_pair_apply_right (t := SRR) (s₁ := SR) (s₂ := SR) (1 : Fin 2) a b H _ rfl rfl (ix2 r k)
    (fun c hc => by
      match c with
      | ⟨0, _⟩ => rfl
      | ⟨1, _⟩ => exact absurd rfl hc)
    (Nat.add_comm _ _)

/-- Column `0 + q` of the five weights joined side by side lies in weight number 0. -/
theorem joinW_0 (w0 w1 w2 w3 w4 : Wgt)
    (H : Shape.Concatenates [SW, SW, SW, SW, SW] SWW 1)
    (k : Fin 1024) (q : Fin 512) :
    concatenate SWW 1 [⟨SW, w0⟩, ⟨SW, w1⟩, ⟨SW, w2⟩, ⟨SW, w3⟩, ⟨SW, w4⟩] H (ix2 k (col 0 q)) = w0 (ix2 k q) :=
  concatenate_apply_piece (α := Ideal .f32) (t := SWW) (1 : Fin 2) [⟨SW, w0⟩, ⟨SW, w1⟩, ⟨SW, w2⟩, ⟨SW, w3⟩, ⟨SW, w4⟩] H _ 0
    (by show 0 < 5; omega) SW w0 rfl rfl 0 rfl (ix2 k q)
    (fun b => by
      match b with
      | ⟨0, _⟩ => exact fun _ => rfl
      | ⟨1, _⟩ => exact fun hb => absurd rfl hb)
    rfl

/-- Entry `0 + q` of the five biases joined end to end lies in bias number 0. -/
theorem joinB_0 (b0 b1 b2 b3 b4 : Bias)
    (H : Shape.Concatenates [SB, SB, SB, SB, SB] SBB 0)
    (q : Fin 512) :
    concatenate SBB 0 [⟨SB, b0⟩, ⟨SB, b1⟩, ⟨SB, b2⟩, ⟨SB, b3⟩, ⟨SB, b4⟩] H (ix1 (col 0 q)) = b0 (ix1 q) :=
  concatenate_apply_piece (α := Ideal .f32) (t := SBB) (0 : Fin 1) [⟨SB, b0⟩, ⟨SB, b1⟩, ⟨SB, b2⟩, ⟨SB, b3⟩, ⟨SB, b4⟩] H _ 0
    (by show 0 < 5; omega) SB b0 rfl rfl 0 rfl (ix1 q)
    (fun b => by
      match b with
      | ⟨0, _⟩ => exact fun hb => absurd rfl hb)
    rfl

/-- Column `512 + q` of the five weights joined side by side lies in weight number 1. -/
theorem joinW_1 (w0 w1 w2 w3 w4 : Wgt)
    (H : Shape.Concatenates [SW, SW, SW, SW, SW] SWW 1)
    (k : Fin 1024) (q : Fin 512) :
    concatenate SWW 1 [⟨SW, w0⟩, ⟨SW, w1⟩, ⟨SW, w2⟩, ⟨SW, w3⟩, ⟨SW, w4⟩] H (ix2 k (col 512 q)) = w1 (ix2 k q) :=
  concatenate_apply_piece (α := Ideal .f32) (t := SWW) (1 : Fin 2) [⟨SW, w0⟩, ⟨SW, w1⟩, ⟨SW, w2⟩, ⟨SW, w3⟩, ⟨SW, w4⟩] H _ 1
    (by show 1 < 5; omega) SW w1 rfl rfl 512 rfl (ix2 k q)
    (fun b => by
      match b with
      | ⟨0, _⟩ => exact fun _ => rfl
      | ⟨1, _⟩ => exact fun hb => absurd rfl hb)
    rfl

/-- Entry `512 + q` of the five biases joined end to end lies in bias number 1. -/
theorem joinB_1 (b0 b1 b2 b3 b4 : Bias)
    (H : Shape.Concatenates [SB, SB, SB, SB, SB] SBB 0)
    (q : Fin 512) :
    concatenate SBB 0 [⟨SB, b0⟩, ⟨SB, b1⟩, ⟨SB, b2⟩, ⟨SB, b3⟩, ⟨SB, b4⟩] H (ix1 (col 512 q)) = b1 (ix1 q) :=
  concatenate_apply_piece (α := Ideal .f32) (t := SBB) (0 : Fin 1) [⟨SB, b0⟩, ⟨SB, b1⟩, ⟨SB, b2⟩, ⟨SB, b3⟩, ⟨SB, b4⟩] H _ 1
    (by show 1 < 5; omega) SB b1 rfl rfl 512 rfl (ix1 q)
    (fun b => by
      match b with
      | ⟨0, _⟩ => exact fun hb => absurd rfl hb)
    rfl

/-- Column `1024 + q` of the five weights joined side by side lies in weight number 2. -/
theorem joinW_2 (w0 w1 w2 w3 w4 : Wgt)
    (H : Shape.Concatenates [SW, SW, SW, SW, SW] SWW 1)
    (k : Fin 1024) (q : Fin 512) :
    concatenate SWW 1 [⟨SW, w0⟩, ⟨SW, w1⟩, ⟨SW, w2⟩, ⟨SW, w3⟩, ⟨SW, w4⟩] H (ix2 k (col 1024 q)) = w2 (ix2 k q) :=
  concatenate_apply_piece (α := Ideal .f32) (t := SWW) (1 : Fin 2) [⟨SW, w0⟩, ⟨SW, w1⟩, ⟨SW, w2⟩, ⟨SW, w3⟩, ⟨SW, w4⟩] H _ 2
    (by show 2 < 5; omega) SW w2 rfl rfl 1024 rfl (ix2 k q)
    (fun b => by
      match b with
      | ⟨0, _⟩ => exact fun _ => rfl
      | ⟨1, _⟩ => exact fun hb => absurd rfl hb)
    rfl

/-- Entry `1024 + q` of the five biases joined end to end lies in bias number 2. -/
theorem joinB_2 (b0 b1 b2 b3 b4 : Bias)
    (H : Shape.Concatenates [SB, SB, SB, SB, SB] SBB 0)
    (q : Fin 512) :
    concatenate SBB 0 [⟨SB, b0⟩, ⟨SB, b1⟩, ⟨SB, b2⟩, ⟨SB, b3⟩, ⟨SB, b4⟩] H (ix1 (col 1024 q)) = b2 (ix1 q) :=
  concatenate_apply_piece (α := Ideal .f32) (t := SBB) (0 : Fin 1) [⟨SB, b0⟩, ⟨SB, b1⟩, ⟨SB, b2⟩, ⟨SB, b3⟩, ⟨SB, b4⟩] H _ 2
    (by show 2 < 5; omega) SB b2 rfl rfl 1024 rfl (ix1 q)
    (fun b => by
      match b with
      | ⟨0, _⟩ => exact fun hb => absurd rfl hb)
    rfl

/-- Column `1536 + q` of the five weights joined side by side lies in weight number 3. -/
theorem joinW_3 (w0 w1 w2 w3 w4 : Wgt)
    (H : Shape.Concatenates [SW, SW, SW, SW, SW] SWW 1)
    (k : Fin 1024) (q : Fin 512) :
    concatenate SWW 1 [⟨SW, w0⟩, ⟨SW, w1⟩, ⟨SW, w2⟩, ⟨SW, w3⟩, ⟨SW, w4⟩] H (ix2 k (col 1536 q)) = w3 (ix2 k q) :=
  concatenate_apply_piece (α := Ideal .f32) (t := SWW) (1 : Fin 2) [⟨SW, w0⟩, ⟨SW, w1⟩, ⟨SW, w2⟩, ⟨SW, w3⟩, ⟨SW, w4⟩] H _ 3
    (by show 3 < 5; omega) SW w3 rfl rfl 1536 rfl (ix2 k q)
    (fun b => by
      match b with
      | ⟨0, _⟩ => exact fun _ => rfl
      | ⟨1, _⟩ => exact fun hb => absurd rfl hb)
    rfl

/-- Entry `1536 + q` of the five biases joined end to end lies in bias number 3. -/
theorem joinB_3 (b0 b1 b2 b3 b4 : Bias)
    (H : Shape.Concatenates [SB, SB, SB, SB, SB] SBB 0)
    (q : Fin 512) :
    concatenate SBB 0 [⟨SB, b0⟩, ⟨SB, b1⟩, ⟨SB, b2⟩, ⟨SB, b3⟩, ⟨SB, b4⟩] H (ix1 (col 1536 q)) = b3 (ix1 q) :=
  concatenate_apply_piece (α := Ideal .f32) (t := SBB) (0 : Fin 1) [⟨SB, b0⟩, ⟨SB, b1⟩, ⟨SB, b2⟩, ⟨SB, b3⟩, ⟨SB, b4⟩] H _ 3
    (by show 3 < 5; omega) SB b3 rfl rfl 1536 rfl (ix1 q)
    (fun b => by
      match b with
      | ⟨0, _⟩ => exact fun hb => absurd rfl hb)
    rfl

/-- Column `2048 + q` of the five weights joined side by side lies in weight number 4. -/
theorem joinW_4 (w0 w1 w2 w3 w4 : Wgt)
    (H : Shape.Concatenates [SW, SW, SW, SW, SW] SWW 1)
    (k : Fin 1024) (q : Fin 512) :
    concatenate SWW 1 [⟨SW, w0⟩, ⟨SW, w1⟩, ⟨SW, w2⟩, ⟨SW, w3⟩, ⟨SW, w4⟩] H (ix2 k (col 2048 q)) = w4 (ix2 k q) :=
  concatenate_apply_piece (α := Ideal .f32) (t := SWW) (1 : Fin 2) [⟨SW, w0⟩, ⟨SW, w1⟩, ⟨SW, w2⟩, ⟨SW, w3⟩, ⟨SW, w4⟩] H _ 4
    (by show 4 < 5; omega) SW w4 rfl rfl 2048 rfl (ix2 k q)
    (fun b => by
      match b with
      | ⟨0, _⟩ => exact fun _ => rfl
      | ⟨1, _⟩ => exact fun hb => absurd rfl hb)
    rfl

/-- Entry `2048 + q` of the five biases joined end to end lies in bias number 4. -/
theorem joinB_4 (b0 b1 b2 b3 b4 : Bias)
    (H : Shape.Concatenates [SB, SB, SB, SB, SB] SBB 0)
    (q : Fin 512) :
    concatenate SBB 0 [⟨SB, b0⟩, ⟨SB, b1⟩, ⟨SB, b2⟩, ⟨SB, b3⟩, ⟨SB, b4⟩] H (ix1 (col 2048 q)) = b4 (ix1 q) :=
  concatenate_apply_piece (α := Ideal .f32) (t := SBB) (0 : Fin 1) [⟨SB, b0⟩, ⟨SB, b1⟩, ⟨SB, b2⟩, ⟨SB, b3⟩, ⟨SB, b4⟩] H _ 4
    (by show 4 < 5; omega) SB b4 rfl rfl 2048 rfl (ix1 q)
    (fun b => by
      match b with
      | ⟨0, _⟩ => exact fun hb => absurd rfl hb)
    rfl

end Cert.RefCell

end
-- ==== Proof.RefGates.lean ====
/-
  The five gates of the cell as the one-product arrangement computes them.

  The input row and the hidden row are laid side by side (1024 columns) and multiplied into the five gate weights laid
  side by side (2560 columns); the five biases, laid end to end, are added to every row. Column `512 g + q` of the
  result is gate number `g` at column `q`: splitting the sum over the 1024 joined columns into its two halves gives
  the input row against the weight's upper rows plus the hidden row against its lower rows, which is the cell's
  pre-activation. Three gates then pass through `1 / (1 + exp (-z))`, which is the logistic function by definition
  (the literal is exactly one), and two through the hyperbolic tangent.
-/
import proofs.«134388_j1967095022176_2_alg».proof.Proof.RefHalves
import proofs.«134388_j1967095022176_2_alg».proof.Proof.Gen.ReferenceIdeal.Read

noncomputable section

namespace Cert.RefCell

open Idealize.ShloMosaic Idealize.ShloMosaic.ValueIdx Cert.Cell Cert.ReferenceIdeal Cert.ReferenceIdeal.Read
open scoped BigOperators

/-- The single-precision pattern `0x3F800000` is the number one. -/
theorem one_bits : Ideal.ofBits .f32 0x3F800000#32 = 1 := by
  simp [Ideal.ofBits, Ideal.ieee, -EReal.coe_mul]; norm_num

/-- The joined rows at a column of the upper half are the input row. -/
theorem rows_up (x0 x1 : Rows) (r : Fin 32768) (k : Fin 512) :
    val_main_v0 (F := Ideal) x0 x1 (ix2 r (up k)) = x0 (ix2 r k) := join2_up x0 x1 _ r k

/-- The joined rows at a column of the lower half are the hidden row. -/
theorem rows_dn (x0 x1 : Rows) (r : Fin 32768) (k : Fin 512) :
    val_main_v0 (F := Ideal) x0 x1 (ix2 r (dn k)) = x1 (ix2 r k) := join2_dn x0 x1 _ r k

/-- The one product at row `r`, column `c`: the input row against the joined weights' upper rows plus the hidden row
    against their lower rows. -/
theorem dot3_at (x0 x1 : Rows) (x4 x6 x8 x10 x12 : Wgt) (r : Fin 32768) (c : Fin 2560) :
    val_main_v3 (F := Ideal) x0 x1 x4 x6 x8 x10 x12 (ix2 r c)
      = (∑ k : Fin 512, x0 (ix2 r k) * val_main_v1 (F := Ideal) x4 x6 x8 x10 x12 (ix2 (up k) c))
        + ∑ k : Fin 512, x1 (ix2 r k) * val_main_v1 (F := Ideal) x4 x6 x8 x10 x12 (ix2 (dn k) c) := by
  have el : ∀ k : Fin 1024, lidx_main_v3 (ix2 r c) k = ix2 r k := fun k => funext fun a => Fin.ext (by
    match a with
    | ⟨0, _⟩ => rfl
    | ⟨1, _⟩ => rfl)
  have er : ∀ k : Fin 1024, ridx_main_v3 (ix2 r c) k = ix2 k c := fun k => funext fun a => Fin.ext (by
    match a with
    | ⟨0, _⟩ => rfl
    | ⟨1, _⟩ => rfl)
  rw [val_main_v3_apply]
  refine (sum_halves _).trans ?_
  refine congrArg₂ (· + ·) (Finset.sum_congr rfl fun k _ => ?_) (Finset.sum_congr rfl fun k _ => ?_)
  · rw [el, er, rows_up]
  · rw [el, er, rows_dn]

/-- The joined bias, spread over the rows, at row `r`, column `c`. -/
theorem bias5_at (x5 x7 x9 x11 x13 : Bias) (r : Fin 32768) (c : Fin 2560) :
    val_main_v5 (F := Ideal) x5 x7 x9 x11 x13 (ix2 r c) = val_main_v2 (F := Ideal) x5 x7 x9 x11 x13 (ix1 c) := by
  rw [val_main_v5_apply, val_main_v4_apply]
  exact congrArg _ (funext fun a => Fin.ext (by
    match a with
    | ⟨0, _⟩ => rfl))

/-- Gate number 0 before its nonlinearity: columns 0 to 511 of the one product plus the joined bias. -/
theorem pre_at_0 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v6 (F := Ideal) x0 x1 x4 x5 x6 x7 x8 x9 x10 x11 x12 x13 (ix2 r (col 0 q)) = pre x0 x1 x4 x5 r q := by
  rw [val_main_v6_apply, dot3_at, bias5_at, Ideal.addf_def]
  unfold pre val_main_v1 val_main_v2
  simp only [joinW_0, joinB_0]

/-- The slice that cuts gate number 0 out of the 2560 columns. -/
theorem slice_0 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v7 (F := Ideal) x0 x1 x4 x5 x6 x7 x8 x9 x10 x11 x12 x13 (ix2 r q) = pre x0 x1 x4 x5 r q := by
  rw [val_main_v7_apply]
  have e : idx_main_v7 (ix2 r q) = ix2 r (col 0 q) := funext fun a => Fin.ext (by
    match a with
    | ⟨0, _⟩ => rfl
    | ⟨1, _⟩ => exact (Nat.zero_add _).symm)
  rw [e, pre_at_0]

/-- Gate number 1 before its nonlinearity: columns 512 to 1023 of the one product plus the joined bias. -/
theorem pre_at_1 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v6 (F := Ideal) x0 x1 x4 x5 x6 x7 x8 x9 x10 x11 x12 x13 (ix2 r (col 512 q)) = pre x0 x1 x6 x7 r q := by
  rw [val_main_v6_apply, dot3_at, bias5_at, Ideal.addf_def]
  unfold pre val_main_v1 val_main_v2
  simp only [joinW_1, joinB_1]

/-- The slice that cuts gate number 1 out of the 2560 columns. -/
theorem slice_1 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v8 (F := Ideal) x0 x1 x4 x5 x6 x7 x8 x9 x10 x11 x12 x13 (ix2 r q) = pre x0 x1 x6 x7 r q := by
  rw [val_main_v8_apply]
  have e : idx_main_v8 (ix2 r q) = ix2 r (col 512 q) := funext fun a => Fin.ext (by
    match a with
    | ⟨0, _⟩ => rfl
    | ⟨1, _⟩ => rfl)
  rw [e, pre_at_1]

/-- Gate number 2 before its nonlinearity: columns 1024 to 1535 of the one product plus the joined bias. -/
theorem pre_at_2 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v6 (F := Ideal) x0 x1 x4 x5 x6 x7 x8 x9 x10 x11 x12 x13 (ix2 r (col 1024 q)) = pre x0 x1 x8 x9 r q := by
  rw [val_main_v6_apply, dot3_at, bias5_at, Ideal.addf_def]
  unfold pre val_main_v1 val_main_v2
  simp only [joinW_2, joinB_2]

/-- The slice that cuts gate number 2 out of the 2560 columns. -/
theorem slice_2 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v9 (F := Ideal) x0 x1 x4 x5 x6 x7 x8 x9 x10 x11 x12 x13 (ix2 r q) = pre x0 x1 x8 x9 r q := by
  rw [val_main_v9_apply]
  have e : idx_main_v9 (ix2 r q) = ix2 r (col 1024 q) := funext fun a => Fin.ext (by
    match a with
    | ⟨0, _⟩ => rfl
    | ⟨1, _⟩ => rfl)
  rw [e, pre_at_2]

/-- Gate number 3 before its nonlinearity: columns 1536 to 2047 of the one product plus the joined bias. -/
theorem pre_at_3 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v6 (F := Ideal) x0 x1 x4 x5 x6 x7 x8 x9 x10 x11 x12 x13 (ix2 r (col 1536 q)) = pre x0 x1 x10 x11 r q := by
  rw [val_main_v6_apply, dot3_at, bias5_at, Ideal.addf_def]
  unfold pre val_main_v1 val_main_v2
  simp only [joinW_3, joinB_3]

/-- The slice that cuts gate number 3 out of the 2560 columns. -/
theorem slice_3 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v10 (F := Ideal) x0 x1 x4 x5 x6 x7 x8 x9 x10 x11 x12 x13 (ix2 r q) = pre x0 x1 x10 x11 r q := by
  rw [val_main_v10_apply]
  have e : idx_main_v10 (ix2 r q) = ix2 r (col 1536 q) := funext fun a => Fin.ext (by
    match a with
    | ⟨0, _⟩ => rfl
    | ⟨1, _⟩ => rfl)
  rw [e, pre_at_3]

/-- Gate number 4 before its nonlinearity: columns 2048 to 2559 of the one product plus the joined bias. -/
theorem pre_at_4 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v6 (F := Ideal) x0 x1 x4 x5 x6 x7 x8 x9 x10 x11 x12 x13 (ix2 r (col 2048 q)) = pre x0 x1 x12 x13 r q := by
  rw [val_main_v6_apply, dot3_at, bias5_at, Ideal.addf_def]
  unfold pre val_main_v1 val_main_v2
  simp only [joinW_4, joinB_4]

/-- The slice that cuts gate number 4 out of the 2560 columns. -/
theorem slice_4 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v11 (F := Ideal) x0 x1 x4 x5 x6 x7 x8 x9 x10 x11 x12 x13 (ix2 r q) = pre x0 x1 x12 x13 r q := by
  rw [val_main_v11_apply]
  have e : idx_main_v11 (ix2 r q) = ix2 r (col 2048 q) := funext fun a => Fin.ext (by
    match a with
    | ⟨0, _⟩ => rfl
    | ⟨1, _⟩ => rfl)
  rw [e, pre_at_4]

/-- The i gate: one over one plus the exponential of the negated pre-activation is the logistic function. -/
theorem gate_i (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v17 (F := Ideal) x0 x1 x4 x5 x6 x7 x8 x9 x10 x11 x12 x13 (ix2 r q) = Ideal.logistic (pre x0 x1 x4 x5 r q) := by
  rw [val_main_v17_apply, val_main_v16_apply, val_main_cst_0_apply, val_main_v15_apply, val_main_v14_apply,
    val_main_cst_apply, val_main_v13_apply, val_main_v12_apply, slice_0]
  simp only [Ideal.hostDivf_def, Ideal.addf_def, Ideal.hostUnary_exp_def, Ideal.hostNegf_def, Ideal.negf_def,
    Ideal.ofBits_def, one_bits]
  rfl

/-- The f gate: one over one plus the exponential of the negated pre-activation is the logistic function. -/
theorem gate_f (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v23 (F := Ideal) x0 x1 x4 x5 x6 x7 x8 x9 x10 x11 x12 x13 (ix2 r q) = Ideal.logistic (pre x0 x1 x6 x7 r q) := by
  rw [val_main_v23_apply, val_main_v22_apply, val_main_cst_2_apply, val_main_v21_apply, val_main_v20_apply,
    val_main_cst_1_apply, val_main_v19_apply, val_main_v18_apply, slice_1]
  simp only [Ideal.hostDivf_def, Ideal.addf_def, Ideal.hostUnary_exp_def, Ideal.hostNegf_def, Ideal.negf_def,
    Ideal.ofBits_def, one_bits]
  rfl

/-- The o gate: one over one plus the exponential of the negated pre-activation is the logistic function. -/
theorem gate_o (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v29 (F := Ideal) x0 x1 x4 x5 x6 x7 x8 x9 x10 x11 x12 x13 (ix2 r q) = Ideal.logistic (pre x0 x1 x8 x9 r q) := by
  rw [val_main_v29_apply, val_main_v28_apply, val_main_cst_4_apply, val_main_v27_apply, val_main_v26_apply,
    val_main_cst_3_apply, val_main_v25_apply, val_main_v24_apply, slice_2]
  simp only [Ideal.hostDivf_def, Ideal.addf_def, Ideal.hostUnary_exp_def, Ideal.hostNegf_def, Ideal.negf_def,
    Ideal.ofBits_def, one_bits]
  rfl

/-- The g1 gate: the hyperbolic tangent of its pre-activation. -/
theorem gate_g1 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v30 (F := Ideal) x0 x1 x4 x5 x6 x7 x8 x9 x10 x11 x12 x13 (ix2 r q) = Ideal.tanh (pre x0 x1 x10 x11 r q) := by
  rw [val_main_v30_apply, slice_3, Ideal.hostUnary_tanh_def]

/-- The g2 gate: the hyperbolic tangent of its pre-activation. -/
theorem gate_g2 (x0 x1 : Rows) (x4 : Wgt) (x5 : Bias) (x6 : Wgt) (x7 : Bias) (x8 : Wgt) (x9 : Bias) (x10 : Wgt) (x11 : Bias) (x12 : Wgt) (x13 : Bias) (r : Fin 32768) (q : Fin 512) :
    val_main_v31 (F := Ideal) x0 x1 x4 x5 x6 x7 x8 x9 x10 x11 x12 x13 (ix2 r q) = Ideal.tanh (pre x0 x1 x12 x13 r q) := by
  rw [val_main_v31_apply, slice_4, Ideal.hostUnary_tanh_def]

end Cert.RefCell

end
-- ==== Proof.RefCell.lean ====
/-
  The one-product arrangement of the recurrent cell computes the cell.

  With the five gates identified (each is the cell's gate at its own 512 columns of the one product), the two renewed
  states are `f · c + i · g1` and `f · C + i · g2` entry by entry. For the new hidden row the renewed states are laid
  side by side (1024 columns) and multiplied into the last weight; splitting that sum into its two halves gives the
  first renewed state against the weight's upper rows plus the second against its lower rows; the last bias is added
  to every row, and the output gate multiplies the hyperbolic tangent of the result.
-/
import proofs.«134388_j1967095022176_2_alg».proof.Proof.RefGates

noncomputable section

namespace Cert.RefCell

open Idealize.ShloMosaic Idealize.ShloMosaic.ValueIdx Cert.Cell Cert.ReferenceIdeal Cert.ReferenceIdeal.Read
open scoped BigOperators

/-- The first renewed state. -/
theorem ref_outc (x0 x1 x2 x3 : Rows) (x4 : Wgt) (x5 : Bias) (x6 : Wgt) (x7 : Bias) (x8 : Wgt) (x9 : Bias) (x10 : Wgt) (x11 : Bias)
    (x12 : Wgt) (x13 : Bias) (x14 : Wgt) (x15 : Bias) :
    val_main_v34 (F := Ideal) x0 x1 x2 x4 x5 x6 x7 x8 x9 x10 x11 x12 x13
      = outc ⟨x0, x1, x2, x3, x4, x5, x6, x7, x8, x9, x10, x11, x12, x13, x14, x15⟩ := by
  funext j
  obtain ⟨r, q, rfl⟩ : ∃ (r : Fin 32768) (q : Fin 512), j = ix2 r q := ⟨j 0, j 1, eq_ix2 j⟩
  rw [val_main_v34_apply, val_main_v32_apply, val_main_v33_apply, gate_f, gate_i, gate_g1, Ideal.addf_def,
    Ideal.mulf_def, Ideal.mulf_def]
  rfl

/-- The second renewed state. -/
theorem ref_outC (x0 x1 x2 x3 : Rows) (x4 : Wgt) (x5 : Bias) (x6 : Wgt) (x7 : Bias) (x8 : Wgt) (x9 : Bias) (x10 : Wgt) (x11 : Bias)
    (x12 : Wgt) (x13 : Bias) (x14 : Wgt) (x15 : Bias) :
    val_main_v37 (F := Ideal) x0 x1 x3 x4 x5 x6 x7 x8 x9 x10 x11 x12 x13
      = outC ⟨x0, x1, x2, x3, x4, x5, x6, x7, x8, x9, x10, x11, x12, x13, x14, x15⟩ := by
  funext j
  obtain ⟨r, q, rfl⟩ : ∃ (r : Fin 32768) (q : Fin 512), j = ix2 r q := ⟨j 0, j 1, eq_ix2 j⟩
  rw [val_main_v37_apply, val_main_v35_apply, val_main_v36_apply, gate_f, gate_i, gate_g2, Ideal.addf_def,
    Ideal.mulf_def, Ideal.mulf_def]
  rfl

/-- The renewed states side by side against the last weight: the first against its upper rows plus the second against
    its lower rows. -/
theorem mlp_dot (x0 x1 x2 x3 : Rows) (x4 : Wgt) (x5 : Bias) (x6 : Wgt) (x7 : Bias) (x8 : Wgt) (x9 : Bias) (x10 : Wgt) (x11 : Bias)
    (x12 : Wgt) (x13 : Bias) (x14 : Wgt) (x15 : Bias) (r : Fin 32768) (q : Fin 512) :
    val_main_v39 (F := Ideal) x0 x1 x2 x3 x4 x5 x6 x7 x8 x9 x10 x11 x12 x13 x14 (ix2 r q)
      = (∑ k : Fin 512, newc ⟨x0, x1, x2, x3, x4, x5, x6, x7, x8, x9, x10, x11, x12, x13, x14, x15⟩ r k * x14 (ix2 (up k) q))
        + ∑ k : Fin 512, newC ⟨x0, x1, x2, x3, x4, x5, x6, x7, x8, x9, x10, x11, x12, x13, x14, x15⟩ r k * x14 (ix2 (dn k) q) := by
  have el : ∀ k : Fin 1024, lidx_main_v39 (ix2 r q) k = ix2 r k := fun k => funext fun a => Fin.ext (by
    match a with
    | ⟨0, _⟩ => rfl
    | ⟨1, _⟩ => rfl)
  have er : ∀ k : Fin 1024, ridx_main_v39 (ix2 r q) k = ix2 k q := fun k => funext fun a => Fin.ext (by
    match a with
    | ⟨0, _⟩ => rfl
    | ⟨1, _⟩ => rfl)
  rw [val_main_v39_apply]
  refine (sum_halves _).trans ?_
  refine congrArg₂ (· + ·) (Finset.sum_congr rfl fun k _ => ?_) (Finset.sum_congr rfl fun k _ => ?_)
  · rw [el, er]
    refine congrArg (· * x14 (ix2 (up k) q)) ?_
    unfold val_main_v38
    exact (join2_up _ _ _ r k).trans (congrFun (ref_outc x0 x1 x2 x3 x4 x5 x6 x7 x8 x9 x10 x11 x12 x13 x14 x15) (ix2 r k))
  · rw [el, er]
    refine congrArg (· * x14 (ix2 (dn k) q)) ?_
    unfold val_main_v38
    exact (join2_dn _ _ _ r k).trans (congrFun (ref_outC x0 x1 x2 x3 x4 x5 x6 x7 x8 x9 x10 x11 x12 x13 x14 x15) (ix2 r k))

/-- The last bias, spread over the rows. -/
theorem bias1_at (x15 : Bias) (r : Fin 32768) (q : Fin 512) :
    val_main_v41 (F := Ideal) x15 (ix2 r q) = x15 (ix1 q) := by
  rw [val_main_v41_apply, val_main_v40_apply]
  exact congrArg x15 (funext fun a => Fin.ext (by
    match a with
    | ⟨0, _⟩ => rfl))

/-- The new hidden row. -/
theorem ref_outH (x0 x1 x2 x3 : Rows) (x4 : Wgt) (x5 : Bias) (x6 : Wgt) (x7 : Bias) (x8 : Wgt) (x9 : Bias) (x10 : Wgt) (x11 : Bias)
    (x12 : Wgt) (x13 : Bias) (x14 : Wgt) (x15 : Bias) :
    val_main_v44 (F := Ideal) x0 x1 x2 x3 x4 x5 x6 x7 x8 x9 x10 x11 x12 x13 x14 x15
      = outH ⟨x0, x1, x2, x3, x4, x5, x6, x7, x8, x9, x10, x11, x12, x13, x14, x15⟩ := by
  funext j
  obtain ⟨r, q, rfl⟩ : ∃ (r : Fin 32768) (q : Fin 512), j = ix2 r q := ⟨j 0, j 1, eq_ix2 j⟩
  rw [val_main_v44_apply, val_main_v43_apply, val_main_v42_apply, gate_o, mlp_dot, bias1_at, Ideal.mulf_def,
    Ideal.hostUnary_tanh_def, Ideal.addf_def]
  rfl

end Cert.RefCell

end
-- ==== Proof.Blocks.lean ====
/-
  How the kernel cuts the cell's arrays.

  The batch of 32768 rows is processed in 32 blocks of 1024 rows: row `p` of block `t` is row `t · 1024 + p` of the
  batch. The five gate weights are laid side by side: column `q` of gate `g` is column `g · 512 + q` of 2560, once for the
  upper halves of the weights (meeting `x`) and once for the lower halves (meeting `h`); the five biases are laid end
  to end in the same order as one row. The last weight is cut into its upper and its lower half, its bias kept as one row.
  `Holds` says that ten blocks are those pieces of the sixteen arrays at block `t`.
-/
import proofs.«134388_j1967095022176_2_alg».proof.Proof.Cell
import proofs.«134388_j1967095022176_2_alg».proof.KernelIdeal

noncomputable section

namespace Cert.Blocks

open Idealize.ShloMosaic Idealize.ShloMosaic.ValueIdx Cert.Cell Cert.KernelIdeal

/-- Row `p` of block `t` in the whole batch. -/
def row (t : Fin 32) (p : Fin 1024) : Fin 32768 := ⟨t.val * 1024 + p.val, by omega⟩

/-- Column `q` of gate `g` among the 2560 joined columns. -/
def col (g : Fin 5) (q : Fin 512) : Fin 2560 := ⟨g.val * 512 + q.val, by omega⟩

/-- The five gates' weights and biases, in the order they are joined: `i`, `f`, `o`, `g1`, `g2`. -/
def gateW (A : Args) : Fin 5 → Wgt := ![A.Wi, A.Wf, A.Wo, A.Wg1, A.Wg2]
def gateB (A : Args) : Fin 5 → Bias := ![A.bi, A.bf, A.bo, A.bg1, A.bg2]

/-- The ten blocks the body reads at block `t` are the arrays' pieces: four blocks of 1024 batch rows, the joined
    upper and lower halves of the gate weights, the joined biases as one row, the two halves of the last weight and its
    bias as one row. -/
structure Holds (A : Args) (t : Fin 32)
    (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) : Prop where
  hx : ∀ (p : Fin 1024) (k : Fin 512), b0 (ix2 p k) = A.x (ix2 (row t p) k)
  hh : ∀ (p : Fin 1024) (k : Fin 512), b1 (ix2 p k) = A.h (ix2 (row t p) k)
  hc : ∀ (p : Fin 1024) (k : Fin 512), b2 (ix2 p k) = A.c (ix2 (row t p) k)
  hC : ∀ (p : Fin 1024) (k : Fin 512), b3 (ix2 p k) = A.C (ix2 (row t p) k)
  hWx : ∀ (k : Fin 512) (g : Fin 5) (q : Fin 512), b4 (ix2 k (col g q)) = gateW A g (ix2 (up k) q)
  hWh : ∀ (k : Fin 512) (g : Fin 5) (q : Fin 512), b5 (ix2 k (col g q)) = gateW A g (ix2 (dn k) q)
  hb : ∀ (g : Fin 5) (q : Fin 512), b6 (ix2 (0 : Fin 1) (col g q)) = gateB A g (ix1 q)
  hWmc : ∀ (k q : Fin 512), b7 (ix2 k q) = A.Wm (ix2 (up k) q)
  hWmC : ∀ (k q : Fin 512), b8 (ix2 k q) = A.Wm (ix2 (dn k) q)
  hbm : ∀ (q : Fin 512), b9 (ix2 (0 : Fin 1) q) = A.bm (ix1 q)

end Cert.Blocks

end
-- ==== Proof.BlockOps.lean ====
/-
  The kernel body's non-pointwise operations read at a pair of literal coordinates.

  A product of a 1024-by-512 block with a 512-by-n block, accumulated into the zero array, reads at row p and column j
  the sum over k below 512 of (left at (p, k)) times (right at (k, j)). A slice of 512 columns that starts at column o
  reads at (p, q) the operand at (p, o + q). A one-row array spread over 1024 rows reads at (p, c) its one row at c.
-/
import proofs.«134388_j1967095022176_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.BlockCell

open Idealize.ShloMosaic Idealize.ShloMosaic.ValueIdx Cert.KernelIdeal Cert.KernelIdeal.Gen
open scoped BigOperators

theorem dotW_lhs0 (i : S1024x2560.Idx) (q : dot_S1024x512_S512x2560_S1024x2560_1_0_0_1_n_n.contr.Idx) :
    (dot_S1024x512_S512x2560_S1024x2560_1_0_0_1_n_n.lhsIdx i q 0).val = (i 0).val := by
  unfold DotDims.lhsIdx
  rw [dif_neg (show ¬(0 : Fin S1024x512.rank) ∈ dot_S1024x512_S512x2560_S1024x2560_1_0_0_1_n_n.lhsBatch by decide),
    dif_pos (show (0 : Fin S1024x512.rank) ∈ dot_S1024x512_S512x2560_S1024x2560_1_0_0_1_n_n.lhsNonContracting by decide)]
  rfl
theorem dotW_rhs1 (i : S1024x2560.Idx) (q : dot_S1024x512_S512x2560_S1024x2560_1_0_0_1_n_n.contr.Idx) :
    (dot_S1024x512_S512x2560_S1024x2560_1_0_0_1_n_n.rhsIdx i q 1).val = (i 1).val := by
  unfold DotDims.rhsIdx
  rw [dif_neg (show ¬(1 : Fin S512x2560.rank) ∈ dot_S1024x512_S512x2560_S1024x2560_1_0_0_1_n_n.rhsBatch by decide),
    dif_pos (show (1 : Fin S512x2560.rank) ∈ dot_S1024x512_S512x2560_S1024x2560_1_0_0_1_n_n.rhsNonContracting by decide)]
  rfl

/-- The contraction index `k` is the left operand's column and the right operand's row. -/
theorem dotW_lhs (p : Fin 1024) (j : Fin 2560) (k : Fin 512) :
    dot_S1024x512_S512x2560_S1024x2560_1_0_0_1_n_n.lhsIdx (ix2 p j) ((contrEquiv1 dot_S1024x512_S512x2560_S1024x2560_1_0_0_1_n_n 512 rfl rfl).symm k) = ix2 p k :=
  funext fun a => Fin.ext (by
    have hk := contrEquiv1_symm_val dot_S1024x512_S512x2560_S1024x2560_1_0_0_1_n_n 512 rfl rfl k
    match a with
    | ⟨0, _⟩ => exact dotW_lhs0 _ _
    | ⟨1, _⟩ => exact (dot_S1024x512_S512x2560_S1024x2560_1_0_0_1_n_n.lhsIdx_val_of_single rfl (ix2 p j) _).trans hk)
theorem dotW_rhs (p : Fin 1024) (j : Fin 2560) (k : Fin 512) :
    dot_S1024x512_S512x2560_S1024x2560_1_0_0_1_n_n.rhsIdx (ix2 p j) ((contrEquiv1 dot_S1024x512_S512x2560_S1024x2560_1_0_0_1_n_n 512 rfl rfl).symm k) = ix2 k j :=
  funext fun a => Fin.ext (by
    have hk := contrEquiv1_symm_val dot_S1024x512_S512x2560_S1024x2560_1_0_0_1_n_n 512 rfl rfl k
    match a with
    | ⟨0, _⟩ => exact (dot_S1024x512_S512x2560_S1024x2560_1_0_0_1_n_n.rhsIdx_val_of_single rfl (ix2 p j) _).trans hk
    | ⟨1, _⟩ => exact dotW_rhs1 _ _)

/-- The wide product into the zero array, at row `p` and column `j`. -/
theorem matmulW_apply (lhs : FVec Ideal S1024x512 .f32) (rhs : FVec Ideal S512x2560 .f32) (p : Fin 1024) (j : Fin 2560) :
    matmul dot_S1024x512_S512x2560_S1024x2560_1_0_0_1_n_n none lhs rhs (constant (F := Ideal) S1024x2560 .f32 0x00000000#32) (ix2 p j)
      = ∑ k : Fin 512, lhs (ix2 p k) * rhs (ix2 k j) := by
  refine (Ideal.matmul_constant_zero_apply dot_S1024x512_S512x2560_S1024x2560_1_0_0_1_n_n none lhs rhs (ix2 p j)).trans ?_
  rw [← Equiv.sum_comp (contrEquiv1 dot_S1024x512_S512x2560_S1024x2560_1_0_0_1_n_n 512 rfl rfl).symm]
  refine Finset.sum_congr rfl fun k _ => ?_
  rw [dotW_lhs, dotW_rhs]

theorem dotN_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem dotN_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The contraction index `k` is the left operand's column and the right operand's row. -/
theorem dotN_lhs (p : Fin 1024) (j : Fin 512) (k : Fin 512) :
    dot_S1024x512_S512x512_S1024x512_1_0_0_1_n_n.lhsIdx (ix2 p j) ((contrEquiv1 dot_S1024x512_S512x512_S1024x512_1_0_0_1_n_n 512 rfl rfl).symm k) = ix2 p k :=
  funext fun a => Fin.ext (by
    have hk := contrEquiv1_symm_val dot_S1024x512_S512x512_S1024x512_1_0_0_1_n_n 512 rfl rfl k
    match a with
    | ⟨0, _⟩ => exact dotN_lhs0 _ _
    | ⟨1, _⟩ => exact (dot_S1024x512_S512x512_S1024x512_1_0_0_1_n_n.lhsIdx_val_of_single rfl (ix2 p j) _).trans hk)
theorem dotN_rhs (p : Fin 1024) (j : Fin 512) (k : Fin 512) :
    dot_S1024x512_S512x512_S1024x512_1_0_0_1_n_n.rhsIdx (ix2 p j) ((contrEquiv1 dot_S1024x512_S512x512_S1024x512_1_0_0_1_n_n 512 rfl rfl).symm k) = ix2 k j :=
  funext fun a => Fin.ext (by
    have hk := contrEquiv1_symm_val dot_S1024x512_S512x512_S1024x512_1_0_0_1_n_n 512 rfl rfl k
    match a with
    | ⟨0, _⟩ => exact (dot_S1024x512_S512x512_S1024x512_1_0_0_1_n_n.rhsIdx_val_of_single rfl (ix2 p j) _).trans hk
    | ⟨1, _⟩ => exact dotN_rhs1 _ _)

/-- The narrow product into the zero array, at row `p` and column `j`. -/
theorem matmulN_apply (lhs : FVec Ideal S1024x512 .f32) (rhs : FVec Ideal S512x512 .f32) (p : Fin 1024) (j : Fin 512) :
    matmul dot_S1024x512_S512x512_S1024x512_1_0_0_1_n_n none lhs rhs (constant (F := Ideal) S1024x512 .f32 0x00000000#32) (ix2 p j)
      = ∑ k : Fin 512, lhs (ix2 p k) * rhs (ix2 k j) := by
  refine (Ideal.matmul_constant_zero_apply dot_S1024x512_S512x512_S1024x512_1_0_0_1_n_n none lhs rhs (ix2 p j)).trans ?_
  rw [← Equiv.sum_comp (contrEquiv1 dot_S1024x512_S512x512_S1024x512_1_0_0_1_n_n 512 rfl rfl).symm]
  refine Finset.sum_congr rfl fun k _ => ?_
  rw [dotN_lhs, dotN_rhs]

/-- A slice of 512 columns starting at column `o`, at `(p, q)`: the operand at `(p, c)` with `c = o + q`. -/
theorem slice_apply {α : Type} (o : Nat) (x : S1024x2560.Idx → α) (h : S1024x2560.Slices ![0, o] S1024x512)
    (p : Fin 1024) (q : Fin 512) (c : Fin 2560) (hc : c.val = o + q.val) :
    extractStridedSlice S1024x512 ![0, o] x h (ix2 p q) = x (ix2 p c) := by
  refine extractStridedSlice_apply ![0, o] x h (ix2 p q) (ix2 p c) fun a => ?_
  match a with
  | ⟨0, _⟩ => exact (Nat.zero_add _).symm
  | ⟨1, _⟩ => exact hc

end Cert.BlockCell

end
-- ==== Proof.BlockCell.lean ====
/-
  The body's three stored values, read at row p and column q of block t, are the cell's functions at row
  t * 1024 + p and column q.

  The five gates' pre-activations are one 1024-by-2560 array: the x block times the joined upper weight halves, plus
  the h block times the joined lower halves, plus the joined bias row spread over the rows. At column g * 512 + q this
  is gate g's pre-activation at column q, because the joined arrays hold gate g's weight and bias there. Slicing 512
  columns from g * 512 and applying the gate's nonlinearity gives the gate; the renewed states and the new hidden row
  follow operation by operation, the last two products having the renewed states as their left operands.
-/
import proofs.«134388_j1967095022176_2_alg».proof.Proof.Cell
import proofs.«134388_j1967095022176_2_alg».proof.Proof.Blocks
import proofs.«134388_j1967095022176_2_alg».proof.Proof.Gen.KernelIdeal.Skeleton
import proofs.«134388_j1967095022176_2_alg».proof.Proof.BlockOps
import Idealize.ShloMosaic.Lib.ValueIdx
import Idealize.ShloMosaic.Lib.Pipeline.Value
import Idealize.ShloMosaic.Lib.ValueLayout
import Idealize.ShloMosaic.PureOps.Ideal.Laws

noncomputable section

namespace Cert.BlockCell

open Idealize.ShloMosaic Idealize.ShloMosaic.ValueIdx Cert.Cell Cert.Blocks Cert.KernelIdeal Cert.KernelIdeal.Gen
open scoped BigOperators

/-- The pre-activation array with its same-shape casts removed: two products into zero arrays plus the spread bias row. -/
theorem pay2_eq (b0 b1 : Vec Ideal S1024x512 .f32) (b4 b5 : Vec Ideal S512x2560 .f32) (b6 : Vec Ideal S1x2560 .f32) :
    k0_pay2 (F := Ideal) b0 b1 b4 b5 b6
      = addf (addf (matmul (φ₁ := .f32) (φ₂ := .f32) dot_S1024x512_S512x2560_S1024x2560_1_0_0_1_n_n none b0 b4 (constant (F := Ideal) S1024x2560 .f32 0x00000000#32))
                   (matmul (φ₁ := .f32) (φ₂ := .f32) dot_S1024x512_S512x2560_S1024x2560_1_0_0_1_n_n none b1 b5 (constant (F := Ideal) S1024x2560 .f32 0x00000000#32)))
             (broadcastTo S1024x2560 b6 broadcasts_S1x2560_S1024x2560) := by
  unfold k0_pay2
  rw [shapeCast_self b4, shapeCast_self b5, shapeCast_self b6]

/-- The pre-activation array at row `p` and column `g * 512 + q` is gate `g`'s pre-activation at row `t * 1024 + p`, column `q`. -/
theorem pre_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (g : Fin 5) (p : Fin 1024) (q : Fin 512) :
    k0_pay2 (F := Ideal) b0 b1 b4 b5 b6 (ix2 p (col g q)) = pre A.x A.h (gateW A g) (gateB A g) (row t p) q := by
  refine (congrFun (pay2_eq b0 b1 b4 b5 b6) (ix2 p (col g q))).trans ?_
  show (matmul (φ₁ := .f32) (φ₂ := .f32) dot_S1024x512_S512x2560_S1024x2560_1_0_0_1_n_n none b0 b4 (constant (F := Ideal) S1024x2560 .f32 0x00000000#32) (ix2 p (col g q))
        + matmul (φ₁ := .f32) (φ₂ := .f32) dot_S1024x512_S512x2560_S1024x2560_1_0_0_1_n_n none b1 b5 (constant (F := Ideal) S1024x2560 .f32 0x00000000#32) (ix2 p (col g q)))
      + broadcastTo S1024x2560 b6 broadcasts_S1x2560_S1024x2560 (ix2 p (col g q)) = _
  unfold pre
  refine congrArg₂ (· + ·) (congrArg₂ (· + ·) ?_ ?_) ?_
  · refine (matmulW_apply b0 b4 p (col g q)).trans (Finset.sum_congr rfl fun k _ => ?_)
    rw [hB.hx p k, hB.hWx k g q]
  · refine (matmulW_apply b1 b5 p (col g q)).trans (Finset.sum_congr rfl fun k _ => ?_)
    rw [hB.hh p k, hB.hWh k g q]
  · exact (broadcastTo_1b_ab_apply b6 broadcasts_S1x2560_S1024x2560 p (col g q)).trans (hB.hb g q)

/-- The slice of 512 columns from column `o = g * 512` of the pre-activation array, at `(p, q)`. -/
theorem pre_slice (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (g : Fin 5) (o : Nat) (h : S1024x2560.Slices ![0, o] S1024x512) (ho : g.val * 512 = o)
    (p : Fin 1024) (q : Fin 512) :
    extractStridedSlice S1024x512 ![0, o] (k0_pay2 (F := Ideal) b0 b1 b4 b5 b6) h (ix2 p q)
      = pre A.x A.h (gateW A g) (gateB A g) (row t p) q :=
  (slice_apply o _ h p q (col g q) (by show g.val * 512 + q.val = o + q.val; rw [ho])).trans (pre_at A t b0 b1 b2 b3 b4 b5 b6 b7 b8 b9 hB g p q)

/-- Gate `i`: the logistic function of the first 512 columns. -/
theorem pay3_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay3 (F := Ideal) b0 b1 b4 b5 b6 (ix2 p q) = gi A (row t p) q := by
  unfold k0_pay3
  show Ideal.logistic (extractStridedSlice S1024x512 ![0, 0] (k0_pay2 (F := Ideal) b0 b1 b4 b5 b6) _ (ix2 p q)) = _
  exact congrArg Ideal.logistic (pre_slice A t b0 b1 b2 b3 b4 b5 b6 b7 b8 b9 hB 0 0 _ rfl p q)

/-- Gate `f`: the logistic function of the second 512 columns. -/
theorem pay4_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay4 (F := Ideal) b0 b1 b4 b5 b6 (ix2 p q) = gf A (row t p) q := by
  unfold k0_pay4
  show Ideal.logistic (extractStridedSlice S1024x512 ![0, 512] (k0_pay2 (F := Ideal) b0 b1 b4 b5 b6) _ (ix2 p q)) = _
  exact congrArg Ideal.logistic (pre_slice A t b0 b1 b2 b3 b4 b5 b6 b7 b8 b9 hB 1 512 _ rfl p q)

/-- Gate `o`: the logistic function of the third 512 columns. -/
theorem pay5_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay5 (F := Ideal) b0 b1 b4 b5 b6 (ix2 p q) = go A (row t p) q := by
  unfold k0_pay5
  show Ideal.logistic (extractStridedSlice S1024x512 ![0, 1024] (k0_pay2 (F := Ideal) b0 b1 b4 b5 b6) _ (ix2 p q)) = _
  exact congrArg Ideal.logistic (pre_slice A t b0 b1 b2 b3 b4 b5 b6 b7 b8 b9 hB 2 1024 _ rfl p q)

/-- The renewed state `c`: gate `f` times the old state plus gate `i` times the hyperbolic tangent of the fourth 512 columns. -/
theorem pay_c (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay6 (F := Ideal) b0 b1 b2 b4 b5 b6 (ix2 p q) = newc A (row t p) q := by
  unfold k0_pay6
  show k0_pay4 (F := Ideal) b0 b1 b4 b5 b6 (ix2 p q) * b2 (ix2 p q)
      + k0_pay3 (F := Ideal) b0 b1 b4 b5 b6 (ix2 p q)
        * Ideal.tanh (extractStridedSlice S1024x512 ![0, 1536] (k0_pay2 (F := Ideal) b0 b1 b4 b5 b6) _ (ix2 p q)) = _
  exact congrArg₂ (· + ·)
    (congrArg₂ (· * ·) (pay4_at A t b0 b1 b2 b3 b4 b5 b6 b7 b8 b9 hB p q) (hB.hc p q))
    (congrArg₂ (· * ·) (pay3_at A t b0 b1 b2 b3 b4 b5 b6 b7 b8 b9 hB p q) (congrArg Ideal.tanh (pre_slice A t b0 b1 b2 b3 b4 b5 b6 b7 b8 b9 hB 3 1536 _ rfl p q)))

/-- The renewed state `C`: gate `f` times the old state plus gate `i` times the hyperbolic tangent of the fifth 512 columns. -/
theorem pay_C (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay7 (F := Ideal) b0 b1 b3 b4 b5 b6 (ix2 p q) = newC A (row t p) q := by
  unfold k0_pay7
  show k0_pay4 (F := Ideal) b0 b1 b4 b5 b6 (ix2 p q) * b3 (ix2 p q)
      + k0_pay3 (F := Ideal) b0 b1 b4 b5 b6 (ix2 p q)
        * Ideal.tanh (extractStridedSlice S1024x512 ![0, 2048] (k0_pay2 (F := Ideal) b0 b1 b4 b5 b6) _ (ix2 p q)) = _
  exact congrArg₂ (· + ·)
    (congrArg₂ (· * ·) (pay4_at A t b0 b1 b2 b3 b4 b5 b6 b7 b8 b9 hB p q) (hB.hC p q))
    (congrArg₂ (· * ·) (pay3_at A t b0 b1 b2 b3 b4 b5 b6 b7 b8 b9 hB p q) (congrArg Ideal.tanh (pre_slice A t b0 b1 b2 b3 b4 b5 b6 b7 b8 b9 hB 4 2048 _ rfl p q)))

/-- The renewed state `c` against the upper half of the last weight. -/
theorem pay8_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay8 (F := Ideal) b0 b1 b2 b4 b5 b6 b7 (ix2 p q) = ∑ k : Fin 512, newc A (row t p) k * A.Wm (ix2 (up k) q) := by
  unfold k0_pay8
  rw [shapeCast_self b7]
  refine (matmulN_apply (k0_pay6 (F := Ideal) b0 b1 b2 b4 b5 b6) b7 p q).trans (Finset.sum_congr rfl fun k _ => ?_)
  rw [pay_c A t b0 b1 b2 b3 b4 b5 b6 b7 b8 b9 hB p k, hB.hWmc k q]

/-- The renewed state `C` against the lower half of the last weight. -/
theorem pay9_at (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay9 (F := Ideal) b0 b1 b3 b4 b5 b6 b8 (ix2 p q) = ∑ k : Fin 512, newC A (row t p) k * A.Wm (ix2 (dn k) q) := by
  unfold k0_pay9
  rw [shapeCast_self b8]
  refine (matmulN_apply (k0_pay7 (F := Ideal) b0 b1 b3 b4 b5 b6) b8 p q).trans (Finset.sum_congr rfl fun k _ => ?_)
  rw [pay_C A t b0 b1 b2 b3 b4 b5 b6 b7 b8 b9 hB p k, hB.hWmC k q]

/-- The new hidden rows: gate `o` times the hyperbolic tangent of the two products plus the last bias row. -/
theorem pay_h (A : Args) (t : Fin 32) (b0 b1 b2 b3 : Vec Ideal S1024x512 .f32) (b4 b5 : Vec Ideal S512x2560 .f32) (b6 : Vec Ideal S1x2560 .f32)
    (b7 b8 : Vec Ideal S512x512 .f32) (b9 : Vec Ideal S1x512 .f32) (hB : Holds A t b0 b1 b2 b3 b4 b5 b6 b7 b8 b9) (p : Fin 1024) (q : Fin 512) :
    k0_pay1 (F := Ideal) (k0_pay5 b0 b1 b4 b5 b6) (k0_pay8 b0 b1 b2 b4 b5 b6 b7) (k0_pay9 b0 b1 b3 b4 b5 b6 b8) b9 (ix2 p q)
      = newh A (row t p) q := by
  unfold k0_pay1
  rw [shapeCast_self b9]
  show k0_pay5 (F := Ideal) b0 b1 b4 b5 b6 (ix2 p q)
      * Ideal.tanh ((k0_pay8 (F := Ideal) b0 b1 b2 b4 b5 b6 b7 (ix2 p q) + k0_pay9 (F := Ideal) b0 b1 b3 b4 b5 b6 b8 (ix2 p q))
          + broadcastTo S1024x512 b9 broadcasts_S1x512_S1024x512 (ix2 p q)) = _
  exact congrArg₂ (· * ·) (pay5_at A t b0 b1 b2 b3 b4 b5 b6 b7 b8 b9 hB p q)
    (congrArg Ideal.tanh (congrArg₂ (· + ·)
      (congrArg₂ (· + ·) (pay8_at A t b0 b1 b2 b3 b4 b5 b6 b7 b8 b9 hB p q) (pay9_at A t b0 b1 b2 b3 b4 b5 b6 b7 b8 b9 hB p q))
      ((broadcastTo_1b_ab_apply b9 broadcasts_S1x512_S1024x512 p q).trans (hB.hbm q))))

end Cert.BlockCell

end
-- ==== Proof.KernelCellHost.lean ====
/-
  The arrays prepared before the blocks are walked, read at coordinates.

  Each gate weight of 1024 rows is cut into its upper and its lower 512 rows; the five upper halves are laid side by side
  into an array of 2560 columns, the five lower halves likewise; the five biases are laid end to end into 2560 entries
  and turned into one row; the last weight is cut into its two halves and its bias turned into one row. Here each of
  these six arrays is written as that expression of the sixteen arrays as launched, and then read entry by entry:
  column `g · 512 + q` of a joined array is column `q` of gate `g`'s half, row `k` of an upper half is row `k` of the
  weight and row `k` of a lower half is row `512 + k`, and entry `(0, j)` of a vector turned into a row is its entry `j`.
-/
import proofs.«134388_j1967095022176_2_alg».proof.Proof.Cell
import proofs.«134388_j1967095022176_2_alg».proof.Proof.Blocks
import proofs.«134388_j1967095022176_2_alg».proof.Proof.RegionIdeal
import Idealize.ShloMosaic.Lib.Pipeline.Value
import Idealize.ShloMosaic.Lib.ValueLayout
import Idealize.ShloMosaic.Lib.Tactic

set_option maxRecDepth 16384

noncomputable section

namespace Cert.KernelCell

open Idealize.ShloMosaic Idealize.ShloMosaic.TcCoe Idealize.SL.Sem Idealize.ShloMosaic.ValueIdx Cert.Cell Cert.Blocks Cert.KernelIdeal Cert.KernelIdeal.Gen Cert.KernelIdeal.Region

variable (m : (ℓ : Loc nD τ sig) → Buf (Elt Ideal) ℓ)

/-- Each operation's result at its own array is its function's value, and at any other array what was there. -/
macro "host_results" : tactic =>
  `(tactic| repeat (first
      | rw [StableHlo.unary_result] | rw [StableHlo.reshape_result] | rw [StableHlo.nary_result]
      | (rw [StableHlo.unary_result_ne]; rotate_left; decide)
      | (rw [StableHlo.reshape_result_ne]; rotate_left; decide)
      | (rw [StableHlo.nary_result_ne]; rotate_left; decide)))

/-- The same, opening only a vector's turning into a row: every other operation is only stepped over where it writes
    another array. -/
macro "host_steps" : tactic =>
  `(tactic| repeat (first
      | rw [StableHlo.reshape_result]
      | (rw [StableHlo.unary_result_ne]; rotate_left; decide)
      | (rw [StableHlo.reshape_result_ne]; rotate_left; decide)
      | (rw [StableHlo.nary_result_ne]; rotate_left; decide)))

/-! ## The two halves of a weight -/

/-- Rows 0 … 511 of a weight, and rows 512 … 1023. -/
abbrev upperHalf (W : Wgt) : S512x512.Idx → EReal := extractStridedSlice S512x512 ![0, 0] W slices_S1024x512_S512x512_0_0
abbrev lowerHalf (W : Wgt) : S512x512.Idx → EReal := extractStridedSlice S512x512 ![512, 0] W slices_S1024x512_S512x512_512_0

theorem upperHalf_apply (W : Wgt) (k q : Fin 512) : upperHalf W (ix2 k q) = W (ix2 (up k) q) :=
  slice2_axis0_apply 0 W _ k q (up k) (by show k.val = 0 + k.val; omega)

theorem lowerHalf_apply (W : Wgt) (k q : Fin 512) : lowerHalf W (ix2 k q) = W (ix2 (dn k) q) :=
  slice2_axis0_apply 512 W _ k q (dn k) rfl

/-! ## Five pieces laid side by side, or end to end -/

/-- Five arrays of 512 columns laid side by side: column `n · 512 + q` of the joined array is column `q` of piece `n`. -/
theorem joined_columns_apply (X : Fin 5 → (S512x512.Idx → EReal)) (n : Nat) (hn : n < 5) (k q : Fin 512) (j : Fin 2560)
    (hj : j.val = n * 512 + q.val) :
    concatenate S512x2560 1 [⟨S512x512, X 0⟩, ⟨S512x512, X 1⟩, ⟨S512x512, X 2⟩, ⟨S512x512, X 3⟩, ⟨S512x512, X 4⟩]
      concatenates_S512x512_S512x512_S512x512_S512x512_S512x512_S512x2560_d1 (ix2 k j) = X ⟨n, hn⟩ (ix2 k q) := by
  refine concatenate_apply_piece (t := S512x2560) (1 : Fin 2) _ _ (ix2 k j) n (by simpa using hn) S512x512 (X ⟨n, hn⟩) ?_ rfl (n * 512) ?_ (ix2 k q) ?_ ?_
  · interval_cases n <;> rfl
  · interval_cases n <;> rfl
  · intro b hb
    match b with
    | ⟨0, _⟩ => rfl
    | ⟨1, _⟩ => exact absurd rfl hb
  · show n * 512 + q.val = j.val
    omega

/-- Five vectors of 512 entries laid end to end: entry `n · 512 + q` of the joined vector is entry `q` of piece `n`. -/
theorem joined_entries_apply (X : Fin 5 → (S512.Idx → EReal)) (n : Nat) (hn : n < 5) (q : Fin 512) (j : Fin 2560)
    (hj : j.val = n * 512 + q.val) :
    concatenate S2560 0 [⟨S512, X 0⟩, ⟨S512, X 1⟩, ⟨S512, X 2⟩, ⟨S512, X 3⟩, ⟨S512, X 4⟩]
      concatenates_S512_S512_S512_S512_S512_S2560_d0 (ix1 j) = X ⟨n, hn⟩ (ix1 q) := by
  refine concatenate_apply_piece (t := S2560) (0 : Fin 1) _ _ (ix1 j) n (by simpa using hn) S512 (X ⟨n, hn⟩) ?_ rfl (n * 512) ?_ (ix1 q) ?_ ?_
  · interval_cases n <;> rfl
  · interval_cases n <;> rfl
  · intro b hb
    match b with
    | ⟨0, _⟩ => exact absurd rfl hb
  · show n * 512 + q.val = j.val
    omega

/-! ## The launched gate arrays, in the order they are joined -/

/-- The five gates' weights and biases as launched on core `c`: `i`, `f`, `o`, `g1`, `g2`. -/
def launchedW (c : Dev nD) : Fin 5 → Wgt :=
  ![m ((c.tc : Thread nD τ).loc main_arg4), m ((c.tc : Thread nD τ).loc main_arg6), m ((c.tc : Thread nD τ).loc main_arg8),
    m ((c.tc : Thread nD τ).loc main_arg10), m ((c.tc : Thread nD τ).loc main_arg12)]
def launchedB (c : Dev nD) : Fin 5 → Bias :=
  ![m ((c.tc : Thread nD τ).loc main_arg5), m ((c.tc : Thread nD τ).loc main_arg7), m ((c.tc : Thread nD τ).loc main_arg9),
    m ((c.tc : Thread nD τ).loc main_arg11), m ((c.tc : Thread nD τ).loc main_arg13)]

/-! ## The six prepared arrays as expressions of the launched ones -/

/-- The joined upper halves. -/
theorem V_upper (c : Dev nD) : (V m c main_v5 : S512x2560.Idx → EReal)
    = concatenate S512x2560 1 [⟨S512x512, upperHalf (m ((c.tc : Thread nD τ).loc main_arg4))⟩,
      ⟨S512x512, upperHalf (m ((c.tc : Thread nD τ).loc main_arg6))⟩,
      ⟨S512x512, upperHalf (m ((c.tc : Thread nD τ).loc main_arg8))⟩,
      ⟨S512x512, upperHalf (m ((c.tc : Thread nD τ).loc main_arg10))⟩,
      ⟨S512x512, upperHalf (m ((c.tc : Thread nD τ).loc main_arg12))⟩]
      concatenates_S512x512_S512x512_S512x512_S512x512_S512x512_S512x2560_d1 := by
  dsimp only [Region.V, Gen.hostOps0]
  after_results
  dsimp only [Matrix.cons_val]
  host_results

set_option maxHeartbeats 4000000 in
/-- The joined lower halves. -/
theorem V_lower (c : Dev nD) : (V m c main_v11 : S512x2560.Idx → EReal)
    = concatenate S512x2560 1 [⟨S512x512, lowerHalf (m ((c.tc : Thread nD τ).loc main_arg4))⟩,
      ⟨S512x512, lowerHalf (m ((c.tc : Thread nD τ).loc main_arg6))⟩,
      ⟨S512x512, lowerHalf (m ((c.tc : Thread nD τ).loc main_arg8))⟩,
      ⟨S512x512, lowerHalf (m ((c.tc : Thread nD τ).loc main_arg10))⟩,
      ⟨S512x512, lowerHalf (m ((c.tc : Thread nD τ).loc main_arg12))⟩]
      concatenates_S512x512_S512x512_S512x512_S512x512_S512x512_S512x2560_d1 := by
  dsimp only [Region.V, Gen.hostOps0]
  after_results
  dsimp only [Matrix.cons_val]
  host_results

set_option maxHeartbeats 4000000 in
/-- The biases laid end to end. -/
theorem V_biases (c : Dev nD) : (V m c main_v12 : S2560.Idx → EReal)
    = concatenate S2560 0 [⟨S512, (m ((c.tc : Thread nD τ).loc main_arg5) : S512.Idx → EReal)⟩,
      ⟨S512, (m ((c.tc : Thread nD τ).loc main_arg7) : S512.Idx → EReal)⟩,
      ⟨S512, (m ((c.tc : Thread nD τ).loc main_arg9) : S512.Idx → EReal)⟩,
      ⟨S512, (m ((c.tc : Thread nD τ).loc main_arg11) : S512.Idx → EReal)⟩,
      ⟨S512, (m ((c.tc : Thread nD τ).loc main_arg13) : S512.Idx → EReal)⟩]
      concatenates_S512_S512_S512_S512_S512_S2560_d0 := by
  dsimp only [Region.V, Gen.hostOps0]
  after_results
  dsimp only [Matrix.cons_val]
  host_results

/-- The biases as one row: the joined vector turned into a row. -/
theorem V_bias_row (c : Dev nD) : (V m c main_v13 : S1x2560.Idx → EReal)
    = shapeCast S1x2560 (V m c main_v12 : S2560.Idx → EReal) shapeCasts_S2560_S1x2560 := by
  dsimp only [Region.V, Gen.hostOps0]
  simp only [StableHlo.after_cons, StableHlo.after_nil]
  host_steps
  rfl

/-- The two halves of the last weight, and its bias as one row. -/
theorem V_last_upper (c : Dev nD) : (V m c main_v14 : S512x512.Idx → EReal) = upperHalf (m ((c.tc : Thread nD τ).loc main_arg14)) := by
  dsimp only [Region.V, Gen.hostOps0]
  after_results

theorem V_last_lower (c : Dev nD) : (V m c main_v15 : S512x512.Idx → EReal) = lowerHalf (m ((c.tc : Thread nD τ).loc main_arg14)) := by
  dsimp only [Region.V, Gen.hostOps0]
  after_results

theorem V_last_bias_row (c : Dev nD) : (V m c main_v16 : S1x512.Idx → EReal)
    = shapeCast S1x512 (m ((c.tc : Thread nD τ).loc main_arg15) : S512.Idx → EReal) shapeCasts_S512_S1x512 := by
  dsimp only [Region.V, Gen.hostOps0]
  after_results
  rfl

/-! ## The prepared arrays read at coordinates -/

/-- Row `k`, column `n · 512 + q` of the joined upper halves is row `k`, column `q` of gate `n`'s weight. -/
theorem upper_apply (c : Dev nD) (k : Fin 512) (n : Nat) (hn : n < 5) (q : Fin 512) (j : Fin 2560) (hj : j.val = n * 512 + q.val) :
    (V m c main_v5 : S512x2560.Idx → EReal) (ix2 k j) = launchedW m c ⟨n, hn⟩ (ix2 (up k) q) :=
  (congrFun (V_upper m c) (ix2 k j)).trans
    ((joined_columns_apply (fun g => upperHalf (launchedW m c g)) n hn k q j hj).trans (upperHalf_apply _ k q))

/-- Row `k`, column `n · 512 + q` of the joined lower halves is row `512 + k`, column `q` of gate `n`'s weight. -/
theorem lower_apply (c : Dev nD) (k : Fin 512) (n : Nat) (hn : n < 5) (q : Fin 512) (j : Fin 2560) (hj : j.val = n * 512 + q.val) :
    (V m c main_v11 : S512x2560.Idx → EReal) (ix2 k j) = launchedW m c ⟨n, hn⟩ (ix2 (dn k) q) :=
  (congrFun (V_lower m c) (ix2 k j)).trans
    ((joined_columns_apply (fun g => lowerHalf (launchedW m c g)) n hn k q j hj).trans (lowerHalf_apply _ k q))

/-- Entry `n · 512 + q` of the row of biases is entry `q` of gate `n`'s bias. -/
theorem bias_row_apply (c : Dev nD) (n : Nat) (hn : n < 5) (q : Fin 512) (j : Fin 2560) (hj : j.val = n * 512 + q.val) :
    (V m c main_v13 : S1x2560.Idx → EReal) (ix2 (0 : Fin 1) j) = launchedB m c ⟨n, hn⟩ (ix1 q) :=
  (congrFun (V_bias_row m c) (ix2 (0 : Fin 1) j)).trans
    ((shapeCast_a_1a_apply _ _ (0 : Fin 1) j).trans
      ((congrFun (V_biases m c) (ix1 j)).trans (joined_entries_apply (launchedB m c) n hn q j hj)))

/-- The last weight's halves and its bias, entry by entry. -/
theorem last_upper_apply (c : Dev nD) (k q : Fin 512) :
    (V m c main_v14 : S512x512.Idx → EReal) (ix2 k q) = (m ((c.tc : Thread nD τ).loc main_arg14) : Wgt) (ix2 (up k) q) :=
  (congrFun (V_last_upper m c) (ix2 k q)).trans (upperHalf_apply _ k q)

theorem last_lower_apply (c : Dev nD) (k q : Fin 512) :
    (V m c main_v15 : S512x512.Idx → EReal) (ix2 k q) = (m ((c.tc : Thread nD τ).loc main_arg14) : Wgt) (ix2 (dn k) q) :=
  (congrFun (V_last_lower m c) (ix2 k q)).trans (lowerHalf_apply _ k q)

theorem last_bias_row_apply (c : Dev nD) (q : Fin 512) :
    (V m c main_v16 : S1x512.Idx → EReal) (ix2 (0 : Fin 1) q) = (m ((c.tc : Thread nD τ).loc main_arg15) : Bias) (ix1 q) :=
  (congrFun (V_last_bias_row m c) (ix2 (0 : Fin 1) q)).trans (shapeCast_a_1a_apply _ _ (0 : Fin 1) q)

end Cert.KernelCell

end
-- ==== Proof.KernelCellReads.lean ====
/-
  The ten blocks the body reads at a block of batch rows, entry by entry.

  Block `t` of a batch array holds its rows `t · 1024 … t · 1024 + 1023`: entry `(p, k)` of the block is entry
  `(t · 1024 + p, k)` of the array, because an entry of a block sits in its array, on each axis, at the block's number
  times the block's extent plus its own coordinate, and the block's number is `(t, 0)`. The six prepared arrays are read
  whole at every `t`: their block's number is `(0, 0)` and its extent the array's, so entry `(k, j)` of the block is entry
  `(k, j)` of the array.
-/
import proofs.«134388_j1967095022176_2_alg».proof.Proof.Cell
import proofs.«134388_j1967095022176_2_alg».proof.Proof.Blocks
import proofs.«134388_j1967095022176_2_alg».proof.Proof.RegionIdeal
import Idealize.ShloMosaic.Lib.Pipeline.Value

set_option maxRecDepth 16384

noncomputable section

namespace Cert.KernelCell

open Idealize.ShloMosaic Idealize.ShloMosaic.TcCoe Idealize.SL.Sem Idealize.ShloMosaic.ValueIdx Cert.Cell Cert.Blocks Cert.KernelIdeal Cert.KernelIdeal.Gen Cert.KernelIdeal.Region

variable (m : (ℓ : Loc nD τ sig) → Buf (Elt Ideal) ℓ)

/-! ## The blocks' numbers at point `t`

The four batch arrays' blocks are block `(t, 0)`, the six prepared arrays' blocks block `(0, 0)`: decided once over the
32 points. -/

theorem block_index_0 : ∀ t : Fin cfg0.N, win0_0.index t (0 : Fin 2) = t.val ∧ win0_0.index t (1 : Fin 2) = 0 :=
  (by decide +kernel : ∀ t : Fin grid0.N, _)
theorem block_index_1 : ∀ t : Fin cfg0.N, win0_1.index t (0 : Fin 2) = t.val ∧ win0_1.index t (1 : Fin 2) = 0 :=
  (by decide +kernel : ∀ t : Fin grid0.N, _)
theorem block_index_2 : ∀ t : Fin cfg0.N, win0_2.index t (0 : Fin 2) = t.val ∧ win0_2.index t (1 : Fin 2) = 0 :=
  (by decide +kernel : ∀ t : Fin grid0.N, _)
theorem block_index_3 : ∀ t : Fin cfg0.N, win0_3.index t (0 : Fin 2) = t.val ∧ win0_3.index t (1 : Fin 2) = 0 :=
  (by decide +kernel : ∀ t : Fin grid0.N, _)
theorem block_index_4 : ∀ t : Fin cfg0.N, win0_4.index t (0 : Fin 2) = 0 ∧ win0_4.index t (1 : Fin 2) = 0 :=
  (by decide +kernel : ∀ t : Fin grid0.N, _)
theorem block_index_5 : ∀ t : Fin cfg0.N, win0_5.index t (0 : Fin 2) = 0 ∧ win0_5.index t (1 : Fin 2) = 0 :=
  (by decide +kernel : ∀ t : Fin grid0.N, _)
theorem block_index_6 : ∀ t : Fin cfg0.N, win0_6.index t (0 : Fin 2) = 0 ∧ win0_6.index t (1 : Fin 2) = 0 :=
  (by decide +kernel : ∀ t : Fin grid0.N, _)
theorem block_index_7 : ∀ t : Fin cfg0.N, win0_7.index t (0 : Fin 2) = 0 ∧ win0_7.index t (1 : Fin 2) = 0 :=
  (by decide +kernel : ∀ t : Fin grid0.N, _)
theorem block_index_8 : ∀ t : Fin cfg0.N, win0_8.index t (0 : Fin 2) = 0 ∧ win0_8.index t (1 : Fin 2) = 0 :=
  (by decide +kernel : ∀ t : Fin grid0.N, _)
theorem block_index_9 : ∀ t : Fin cfg0.N, win0_9.index t (0 : Fin 2) = 0 ∧ win0_9.index t (1 : Fin 2) = 0 :=
  (by decide +kernel : ∀ t : Fin grid0.N, _)

/-! ## The four blocks of batch rows -/

theorem rows0_apply (c : Dev nD) (t : Fin cfg0.N) (p : Fin 1024) (k : Fin 512) (r : Fin 32768) (hr : r.val = t.val * 1024 + p.val) :
    (iblk m c 0 t : Vec Ideal S1024x512 .f32) (ix2 p k) = (m ((c.tc : Thread nD τ).loc main_arg0) : Rows) (ix2 r k) := by
  obtain ⟨e0, e1⟩ := block_index_0 t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

theorem rows1_apply (c : Dev nD) (t : Fin cfg0.N) (p : Fin 1024) (k : Fin 512) (r : Fin 32768) (hr : r.val = t.val * 1024 + p.val) :
    (iblk m c 1 t : Vec Ideal S1024x512 .f32) (ix2 p k) = (m ((c.tc : Thread nD τ).loc main_arg1) : Rows) (ix2 r k) := by
  obtain ⟨e0, e1⟩ := block_index_1 t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * p.val = r.val; rw [e0, hr]; omega
  | ⟨1, _⟩ => show win0_1.index t (1 : Fin 2) * 512 + 1 * k.val = k.val; rw [e1]; omega

theorem rows2_apply (c : Dev nD) (t : Fin cfg0.N) (p : Fin 1024) (k : Fin 512) (r : Fin 32768) (hr : r.val = t.val * 1024 + p.val) :
    (iblk m c 2 t : Vec Ideal S1024x512 .f32) (ix2 p k) = (m ((c.tc : Thread nD τ).loc main_arg2) : Rows) (ix2 r k) := by
  obtain ⟨e0, e1⟩ := block_index_2 t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * p.val = r.val; rw [e0, hr]; omega
  | ⟨1, _⟩ => show win0_2.index t (1 : Fin 2) * 512 + 1 * k.val = k.val; rw [e1]; omega

theorem rows3_apply (c : Dev nD) (t : Fin cfg0.N) (p : Fin 1024) (k : Fin 512) (r : Fin 32768) (hr : r.val = t.val * 1024 + p.val) :
    (iblk m c 3 t : Vec Ideal S1024x512 .f32) (ix2 p k) = (m ((c.tc : Thread nD τ).loc main_arg3) : Rows) (ix2 r k) := by
  obtain ⟨e0, e1⟩ := block_index_3 t
  unfold iblk
  rw [View.read_apply]
  show V m c main_arg3 _ = _
  rw [V_main_arg3]
  refine congrArg _ (funext fun a => Fin.ext ?_)
  match a with
  | ⟨0, _⟩ => show win0_3.index t (0 : Fin 2) * 1024 + 1 * p.val = r.val; rw [e0, hr]; omega
  | ⟨1, _⟩ => show win0_3.index t (1 : Fin 2) * 512 + 1 * k.val = k.val; rw [e1]; omega

/-! ## The six prepared arrays, read whole -/

theorem whole4_apply (c : Dev nD) (t : Fin cfg0.N) (k : Fin 512) (j : Fin 2560) :
    (iblk m c 4 t : Vec Ideal S512x2560 .f32) (ix2 k j) = (V m c main_v5 : S512x2560.Idx → EReal) (ix2 k j) := by
  obtain ⟨e0, e1⟩ := block_index_4 t
  unfold iblk
  rw [View.read_apply]
  show V m c main_v5 _ = _
  refine congrArg _ (funext fun a => Fin.ext ?_)
  match a with
  | ⟨0, _⟩ => show win0_4.index t (0 : Fin 2) * 512 + 1 * k.val = k.val; rw [e0]; omega
  | ⟨1, _⟩ => show win0_4.index t (1 : Fin 2) * 2560 + 1 * j.val = j.val; rw [e1]; omega

theorem whole5_apply (c : Dev nD) (t : Fin cfg0.N) (k : Fin 512) (j : Fin 2560) :
    (iblk m c 5 t : Vec Ideal S512x2560 .f32) (ix2 k j) = (V m c main_v11 : S512x2560.Idx → EReal) (ix2 k j) := by
  obtain ⟨e0, e1⟩ := block_index_5 t
  unfold iblk
  rw [View.read_apply]
  show V m c main_v11 _ = _
  refine congrArg _ (funext fun a => Fin.ext ?_)
  match a with
  | ⟨0, _⟩ => show win0_5.index t (0 : Fin 2) * 512 + 1 * k.val = k.val; rw [e0]; omega
  | ⟨1, _⟩ => show win0_5.index t (1 : Fin 2) * 2560 + 1 * j.val = j.val; rw [e1]; omega

theorem whole6_apply (c : Dev nD) (t : Fin cfg0.N) (k : Fin 1) (j : Fin 2560) :
    (iblk m c 6 t : Vec Ideal S1x2560 .f32) (ix2 k j) = (V m c main_v13 : S1x2560.Idx → EReal) (ix2 k j) := by
  obtain ⟨e0, e1⟩ := block_index_6 t
  unfold iblk
  rw [View.read_apply]
  show V m c main_v13 _ = _
  refine congrArg _ (funext fun a => Fin.ext ?_)
  match a with
  | ⟨0, _⟩ => show win0_6.index t (0 : Fin 2) * 1 + 1 * k.val = k.val; rw [e0]; omega
  | ⟨1, _⟩ => show win0_6.index t (1 : Fin 2) * 2560 + 1 * j.val = j.val; rw [e1]; omega

theorem whole7_apply (c : Dev nD) (t : Fin cfg0.N) (k : Fin 512) (j : Fin 512) :
    (iblk m c 7 t : Vec Ideal S512x512 .f32) (ix2 k j) = (V m c main_v14 : S512x512.Idx → EReal) (ix2 k j) := by
  obtain ⟨e0, e1⟩ := block_index_7 t
  unfold iblk
  rw [View.read_apply]
  show V m c main_v14 _ = _
  refine congrArg _ (funext fun a => Fin.ext ?_)
  match a with
  | ⟨0, _⟩ => show win0_7.index t (0 : Fin 2) * 512 + 1 * k.val = k.val; rw [e0]; omega
  | ⟨1, _⟩ => show win0_7.index t (1 : Fin 2) * 512 + 1 * j.val = j.val; rw [e1]; omega

theorem whole8_apply (c : Dev nD) (t : Fin cfg0.N) (k : Fin 512) (j : Fin 512) :
    (iblk m c 8 t : Vec Ideal S512x512 .f32) (ix2 k j) = (V m c main_v15 : S512x512.Idx → EReal) (ix2 k j) := by
  obtain ⟨e0, e1⟩ := block_index_8 t
  unfold iblk
  rw [View.read_apply]
  show V m c main_v15 _ = _
  refine congrArg _ (funext fun a => Fin.ext ?_)
  match a with
  | ⟨0, _⟩ => show win0_8.index t (0 : Fin 2) * 512 + 1 * k.val = k.val; rw [e0]; omega
  | ⟨1, _⟩ => show win0_8.index t (1 : Fin 2) * 512 + 1 * j.val = j.val; rw [e1]; omega

theorem whole9_apply (c : Dev nD) (t : Fin cfg0.N) (k : Fin 1) (j : Fin 512) :
    (iblk m c 9 t : Vec Ideal S1x512 .f32) (ix2 k j) = (V m c main_v16 : S1x512.Idx → EReal) (ix2 k j) := by
  obtain ⟨e0, e1⟩ := block_index_9 t
  unfold iblk
  rw [View.read_apply]
  show V m c main_v16 _ = _
  refine congrArg _ (funext fun a => Fin.ext ?_)
  match a with
  | ⟨0, _⟩ => show win0_9.index t (0 : Fin 2) * 1 + 1 * k.val = k.val; rw [e0]; omega
  | ⟨1, _⟩ => show win0_9.index t (1 : Fin 2) * 512 + 1 * j.val = j.val; rw [e1]; omega

end Cert.KernelCell

end
-- ==== Proof.KernelCellOut.lean ====
/-
  Where the three results' blocks sit in the whole results.

  The new hidden rows and the two renewed cell states are written a block of 1024 rows at a time: at point `t` the block
  written is block `(t, 0)`, so its entry `(p, q)` is entry `(t · 1024 + p, q)` of the whole array, and the 32 blocks
  cover all 32768 rows — row `r` lies in the block written at point `r / 1024`.
-/
import proofs.«134388_j1967095022176_2_alg».proof.Proof.Cell
import proofs.«134388_j1967095022176_2_alg».proof.Proof.Blocks
import proofs.«134388_j1967095022176_2_alg».proof.Proof.RegionIdeal
import Idealize.ShloMosaic.Lib.Pipeline.Value

set_option maxRecDepth 16384

noncomputable section

namespace Cert.KernelCell

open Idealize.ShloMosaic Idealize.ShloMosaic.TcCoe Idealize.SL.Sem Idealize.ShloMosaic.ValueIdx Cert.Cell Cert.Blocks Cert.KernelIdeal Cert.KernelIdeal.Gen Cert.KernelIdeal.Region

/-- A block that starts at the origin. -/
theorem origin : (![0, 0] : Fin 2 → Nat) = fun _ => 0 := funext fun a => by fin_cases a <;> rfl

/-! ## The new hidden rows -/

theorem block_index_10 : ∀ t : Fin cfg0.N, win0_10.index t (0 : Fin 2) = t.val ∧ win0_10.index t (1 : Fin 2) = 0 :=
  (by decide +kernel : ∀ t : Fin grid0.N, _)

/-- Entry `(p, q)` of the block written at point `t` sits at entry `(t · 1024 + p, q)` of the whole result. -/
theorem out10_emb (t : Fin cfg0.N) (p : Fin 1024) (q : Fin 512) (r : Fin 32768) (hr : r.val = t.val * 1024 + p.val) :
    ((cfg0.win 10).blk t).view.emb (ix2 p q : S1024x512.Idx) = (ix2 r q : S32768x512.Idx) := by
  obtain ⟨e0, e1⟩ := block_index_10 t
  funext a
  apply Fin.ext
  match a with
  | ⟨0, _⟩ => show win0_10.index t (0 : Fin 2) * 1024 + 1 * p.val = r.val; rw [e0, hr]; omega
  | ⟨1, _⟩ => show win0_10.index t (1 : Fin 2) * 512 + 1 * q.val = q.val; rw [e1]; omega

/-- An entry of the whole result is in the block written at point `t` iff each coordinate is in the block's range. -/
theorem mem_block10 (t : Fin cfg0.N) (i : S32768x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v17_0).slice (win0_10.rect t)).set ↔ _
  rw [View.set_slice_whole, Rect.mem_set_unit]
  exact Iff.rfl

/-- Every row of the result is in some point's block: row `r` in the block written at point `r / 1024`. -/
theorem cover10 (i : S32768x512.Idx) : ∃ t : Fin cfg0.N, (cfg0.win 10).flush t = true ∧ i ∈ ((cfg0.win 10).blk t).view.set := by
  have hi0 : (i 0).val < 32768 := (i 0).isLt
  have hi1 : (i 1).val < 512 := (i 1).isLt
  have hN : cfg0.N = 32 := N_0
  obtain ⟨t, ht⟩ : ∃ t : Fin cfg0.N, t.val = (i 0).val / 1024 := ⟨⟨(i 0).val / 1024, by omega⟩, rfl⟩
  obtain ⟨e0, e1⟩ := block_index_10 t
  refine ⟨t, flush0_10 t, ?_⟩
  rw [mem_block10]
  intro a
  match a with
  | ⟨0, _⟩ => show win0_10.index t (0 : Fin 2) * 1024 ≤ (i 0).val ∧ (i 0).val < win0_10.index t (0 : Fin 2) * 1024 + 1024; rw [e0, ht]; omega
  | ⟨1, _⟩ => show win0_10.index t (1 : Fin 2) * 512 ≤ (i 1).val ∧ (i 1).val < win0_10.index t (1 : Fin 2) * 512 + 512; rw [e1]; omega

/-! ## The first renewed cell state -/

theorem block_index_11 : ∀ t : Fin cfg0.N, win0_11.index t (0 : Fin 2) = t.val ∧ win0_11.index t (1 : Fin 2) = 0 :=
  (by decide +kernel : ∀ t : Fin grid0.N, _)

/-- Entry `(p, q)` of the block written at point `t` sits at entry `(t · 1024 + p, q)` of the whole result. -/
theorem out11_emb (t : Fin cfg0.N) (p : Fin 1024) (q : Fin 512) (r : Fin 32768) (hr : r.val = t.val * 1024 + p.val) :
    ((cfg0.win 11).blk t).view.emb (ix2 p q : S1024x512.Idx) = (ix2 r q : S32768x512.Idx) := by
  obtain ⟨e0, e1⟩ := block_index_11 t
  funext a
  apply Fin.ext
  match a with
  | ⟨0, _⟩ => show win0_11.index t (0 : Fin 2) * 1024 + 1 * p.val = r.val; rw [e0, hr]; omega
  | ⟨1, _⟩ => show win0_11.index t (1 : Fin 2) * 512 + 1 * q.val = q.val; rw [e1]; omega

/-- An entry of the whole result is in the block written at point `t` iff each coordinate is in the block's range. -/
theorem mem_block11 (t : Fin cfg0.N) (i : S32768x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v17_1).slice (win0_11.rect t)).set ↔ _
  rw [View.set_slice_whole, Rect.mem_set_unit]
  exact Iff.rfl

/-- Every row of the result is in some point's block: row `r` in the block written at point `r / 1024`. -/
theorem cover11 (i : S32768x512.Idx) : ∃ t : Fin cfg0.N, (cfg0.win 11).flush t = true ∧ i ∈ ((cfg0.win 11).blk t).view.set := by
  have hi0 : (i 0).val < 32768 := (i 0).isLt
  have hi1 : (i 1).val < 512 := (i 1).isLt
  have hN : cfg0.N = 32 := N_0
  obtain ⟨t, ht⟩ : ∃ t : Fin cfg0.N, t.val = (i 0).val / 1024 := ⟨⟨(i 0).val / 1024, by omega⟩, rfl⟩
  obtain ⟨e0, e1⟩ := block_index_11 t
  refine ⟨t, flush0_11 t, ?_⟩
  rw [mem_block11]
  intro a
  match a with
  | ⟨0, _⟩ => show win0_11.index t (0 : Fin 2) * 1024 ≤ (i 0).val ∧ (i 0).val < win0_11.index t (0 : Fin 2) * 1024 + 1024; rw [e0, ht]; omega
  | ⟨1, _⟩ => show win0_11.index t (1 : Fin 2) * 512 ≤ (i 1).val ∧ (i 1).val < win0_11.index t (1 : Fin 2) * 512 + 512; rw [e1]; omega

/-! ## The second renewed cell state -/

theorem block_index_12 : ∀ t : Fin cfg0.N, win0_12.index t (0 : Fin 2) = t.val ∧ win0_12.index t (1 : Fin 2) = 0 :=
  (by decide +kernel : ∀ t : Fin grid0.N, _)

/-- Entry `(p, q)` of the block written at point `t` sits at entry `(t · 1024 + p, q)` of the whole result. -/
theorem out12_emb (t : Fin cfg0.N) (p : Fin 1024) (q : Fin 512) (r : Fin 32768) (hr : r.val = t.val * 1024 + p.val) :
    ((cfg0.win 12).blk t).view.emb (ix2 p q : S1024x512.Idx) = (ix2 r q : S32768x512.Idx) := by
  obtain ⟨e0, e1⟩ := block_index_12 t
  funext a
  apply Fin.ext
  match a with
  | ⟨0, _⟩ => show win0_12.index t (0 : Fin 2) * 1024 + 1 * p.val = r.val; rw [e0, hr]; omega
  | ⟨1, _⟩ => show win0_12.index t (1 : Fin 2) * 512 + 1 * q.val = q.val; rw [e1]; omega

/-- An entry of the whole result is in the block written at point `t` iff each coordinate is in the block's range. -/
theorem mem_block12 (t : Fin cfg0.N) (i : S32768x512.Idx) :
    i ∈ ((cfg0.win 12).blk t).view.set ↔ ∀ a : Fin 2, win0_12.index t a * S1024x512.size a ≤ (i a).val ∧ (i a).val < win0_12.index t a * S1024x512.size a + S1024x512.size a := by
  show i ∈ ((View.whole main_v17_2).slice (win0_12.rect t)).set ↔ _
  rw [View.set_slice_whole, Rect.mem_set_unit]
  exact Iff.rfl

/-- Every row of the result is in some point's block: row `r` in the block written at point `r / 1024`. -/
theorem cover12 (i : S32768x512.Idx) : ∃ t : Fin cfg0.N, (cfg0.win 12).flush t = true ∧ i ∈ ((cfg0.win 12).blk t).view.set := by
  have hi0 : (i 0).val < 32768 := (i 0).isLt
  have hi1 : (i 1).val < 512 := (i 1).isLt
  have hN : cfg0.N = 32 := N_0
  obtain ⟨t, ht⟩ : ∃ t : Fin cfg0.N, t.val = (i 0).val / 1024 := ⟨⟨(i 0).val / 1024, by omega⟩, rfl⟩
  obtain ⟨e0, e1⟩ := block_index_12 t
  refine ⟨t, flush0_12 t, ?_⟩
  rw [mem_block12]
  intro a
  match a with
  | ⟨0, _⟩ => show win0_12.index t (0 : Fin 2) * 1024 ≤ (i 0).val ∧ (i 0).val < win0_12.index t (0 : Fin 2) * 1024 + 1024; rw [e0, ht]; omega
  | ⟨1, _⟩ => show win0_12.index t (1 : Fin 2) * 512 ≤ (i 1).val ∧ (i 1).val < win0_12.index t (1 : Fin 2) * 512 + 512; rw [e1]; omega

end Cert.KernelCell

end
-- ==== Proof.KernelCell.lean ====
/-
  From the blocks to the whole arrays.

  At block `t` the ten blocks the body reads are exactly the pieces `Holds` names of the sixteen arrays as launched
  (`holds_iblk`): the four blocks of batch rows by where a block's entry sits in its array, the six prepared arrays by
  what the preparation wrote into them. Each result is written a block at a time, the block at point `t` being the
  body's function of those ten blocks; given that this function, entry by entry, is the cell's value at row
  `t · 1024 + p` (the hypothesis of each `final_` theorem), the block written at `t` is block `t` of the cell's whole-array
  function, and since the 32 blocks cover every row, the array ends as that function (`final_h`, `final_c`, `final_C`).
-/
import proofs.«134388_j1967095022176_2_alg».proof.Proof.Cell
import proofs.«134388_j1967095022176_2_alg».proof.Proof.Blocks
import proofs.«134388_j1967095022176_2_alg».proof.Proof.RegionIdeal
import proofs.«134388_j1967095022176_2_alg».proof.Proof.KernelCellHost
import proofs.«134388_j1967095022176_2_alg».proof.Proof.KernelCellReads
import proofs.«134388_j1967095022176_2_alg».proof.Proof.KernelCellOut
import Idealize.ShloMosaic.Lib.Pipeline.Value

set_option maxRecDepth 16384

noncomputable section

namespace Cert.KernelCell

open Idealize.ShloMosaic Idealize.ShloMosaic.TcCoe Idealize.SL.Sem Idealize.ShloMosaic.ValueIdx Cert.Cell Cert.Blocks Cert.KernelIdeal Cert.KernelIdeal.Gen Cert.KernelIdeal.Region

variable (m : (ℓ : Loc nD τ sig) → Buf (Elt Ideal) ℓ)

/-- The sixteen argument arrays as launched on core c. -/
def argsOf (c : Dev nD) : Cell.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15)⟩

/-- A grid point as a block number. -/
def pt (t : Fin cfg0.N) : Fin 32 := ⟨t.val, by have hN : cfg0.N = 32 := N_0; have := t.isLt; omega⟩

/-- The ten blocks read at point `t` are the pieces of the sixteen launched arrays at block `t`. -/
theorem holds_iblk (c : Dev nD) (t : Fin cfg0.N) :
    Holds (argsOf m c) (pt t) (iblk m c 0 t) (iblk m c 1 t) (iblk m c 2 t) (iblk m c 3 t) (iblk m c 4 t) (iblk m c 5 t) (iblk m c 6 t) (iblk m c 7 t) (iblk m c 8 t) (iblk m c 9 t) where
  hx p k := rows0_apply m c t p k (row (pt t) p) rfl
  hh p k := rows1_apply m c t p k (row (pt t) p) rfl
  hc p k := rows2_apply m c t p k (row (pt t) p) rfl
  hC p k := rows3_apply m c t p k (row (pt t) p) rfl
  hWx k g q := (whole4_apply m c t k (col g q)).trans (upper_apply m c k g.val g.isLt q (col g q) rfl)
  hWh k g q := (whole5_apply m c t k (col g q)).trans (lower_apply m c k g.val g.isLt q (col g q) rfl)
  hb g q := (whole6_apply m c t (0 : Fin 1) (col g q)).trans (bias_row_apply m c g.val g.isLt q (col g q) rfl)
  hWmc k q := (whole7_apply m c t k q).trans (last_upper_apply m c k q)
  hWmC k q := (whole8_apply m c t k q).trans (last_lower_apply m c k q)
  hbm q := (whole9_apply m c t (0 : Fin 1) q).trans (last_bias_row_apply m c q)

/-! ## The new hidden rows -/

/-- What point `t` writes back is block `t` of the cell's new hidden rows. -/
theorem flushed_h (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay1 (F := Ideal) (k0_pay5 b0 b1 b4 b5 b6) (k0_pay8 b0 b1 b2 b4 b5 b6 b7) (k0_pay9 b0 b1 b3 b4 b5 b6 b8) b9 (ix2 p q) = newh A (row t p) q)
    (t : Fin cfg0.N) :
    (dats m 0 c).flushed 10 t = ((cfg0.win 10).blk t).view.read (Elt Ideal) (outH (argsOf m c)) := by
  show (cfg0.win 10).cut (grid0.coords t) ((dats m 0 c).after 10 t) = _
  rw [after0_10]
  unfold out0_10
  rw [View.canon_unit_zero origin]
  simp only [View.ld_unit_zero (S := S1024x512) origin, View.ld_unit_zero (S := S512x2560) origin, View.ld_unit_zero (S := S1x2560) origin,
    View.ld_unit_zero (S := S512x512) origin, View.ld_unit_zero (S := S1x512) origin]
  funext y
  obtain ⟨p, q, rfl⟩ : ∃ (p : Fin 1024) (q : Fin 512), y = (ix2 p q : S1024x512.Idx) := ⟨y 0, y 1, eq_ix2 (n0 := 1024) (n1 := 512) y⟩
  rw [View.read_apply, out10_emb t p q (row (pt t) p) rfl]
  exact hpay (argsOf m c) (pt t) _ _ _ _ _ _ _ _ _ _ (holds_iblk m c t) p q

theorem final_h (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay1 (F := Ideal) (k0_pay5 b0 b1 b4 b5 b6) (k0_pay8 b0 b1 b2 b4 b5 b6 b7) (k0_pay9 b0 b1 b3 b4 b5 b6 b8) b9 (ix2 p q) = newh A (row t p) q) :
    (dats m 0 c).arrAt 10 cfg0.N = outH (argsOf m c) :=
  (dats m 0 c).arrAt_eq_of_cover 10 (outH (argsOf m c)) (fun t _ => flushed_h m c hpay t) cover10

/-! ## The first renewed cell state -/

/-- What point `t` writes back is block `t` of the cell's first renewed state. -/
theorem flushed_c (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay6 (F := Ideal) b0 b1 b2 b4 b5 b6 (ix2 p q) = newc A (row t p) q)
    (t : Fin cfg0.N) :
    (dats m 0 c).flushed 11 t = ((cfg0.win 11).blk t).view.read (Elt Ideal) (outc (argsOf m c)) := by
  show (cfg0.win 11).cut (grid0.coords t) ((dats m 0 c).after 11 t) = _
  rw [after0_11]
  unfold out0_11
  rw [View.canon_unit_zero origin]
  simp only [View.ld_unit_zero (S := S1024x512) origin, View.ld_unit_zero (S := S512x2560) origin, View.ld_unit_zero (S := S1x2560) origin]
  funext y
  obtain ⟨p, q, rfl⟩ : ∃ (p : Fin 1024) (q : Fin 512), y = (ix2 p q : S1024x512.Idx) := ⟨y 0, y 1, eq_ix2 (n0 := 1024) (n1 := 512) y⟩
  rw [View.read_apply, out11_emb t p q (row (pt t) p) rfl]
  exact hpay (argsOf m c) (pt t) _ _ _ (iblk m c 3 t) _ _ _ (iblk m c 7 t) (iblk m c 8 t) (iblk m c 9 t) (holds_iblk m c t) p q

theorem final_c (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay6 (F := Ideal) b0 b1 b2 b4 b5 b6 (ix2 p q) = newc A (row t p) q) :
    (dats m 0 c).arrAt 11 cfg0.N = outc (argsOf m c) :=
  (dats m 0 c).arrAt_eq_of_cover 11 (outc (argsOf m c)) (fun t _ => flushed_c m c hpay t) cover11

/-! ## The second renewed cell state -/

/-- What point `t` writes back is block `t` of the cell's second renewed state. -/
theorem flushed_C (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay7 (F := Ideal) b0 b1 b3 b4 b5 b6 (ix2 p q) = newC A (row t p) q)
    (t : Fin cfg0.N) :
    (dats m 0 c).flushed 12 t = ((cfg0.win 12).blk t).view.read (Elt Ideal) (outC (argsOf m c)) := by
  show (cfg0.win 12).cut (grid0.coords t) ((dats m 0 c).after 12 t) = _
  rw [after0_12]
  unfold out0_12
  rw [View.canon_unit_zero origin]
  simp only [View.ld_unit_zero (S := S1024x512) origin, View.ld_unit_zero (S := S512x2560) origin, View.ld_unit_zero (S := S1x2560) origin]
  funext y
  obtain ⟨p, q, rfl⟩ : ∃ (p : Fin 1024) (q : Fin 512), y = (ix2 p q : S1024x512.Idx) := ⟨y 0, y 1, eq_ix2 (n0 := 1024) (n1 := 512) y⟩
  rw [View.read_apply, out12_emb t p q (row (pt t) p) rfl]
  exact hpay (argsOf m c) (pt t) _ _ (iblk m c 2 t) _ _ _ _ (iblk m c 7 t) (iblk m c 8 t) (iblk m c 9 t) (holds_iblk m c t) p q

theorem final_C (c : Dev nD)
    (hpay : ∀ (A : Args) (t : Fin 32) (b0 b1 b2 b3 : Vec Ideal S1024x512 .f32) (b4 b5 : Vec Ideal S512x2560 .f32) (b6 : Vec Ideal S1x2560 .f32) (b7 b8 : Vec Ideal S512x512 .f32) (b9 : Vec Ideal S1x512 .f32),
          Holds A t b0 b1 b2 b3 b4 b5 b6 b7 b8 b9 → ∀ (p : Fin 1024) (q : Fin 512),
          k0_pay7 (F := Ideal) b0 b1 b3 b4 b5 b6 (ix2 p q) = newC A (row t p) q) :
    (dats m 0 c).arrAt 12 cfg0.N = outC (argsOf m c) :=
  (dats m 0 c).arrAt_eq_of_cover 12 (outC (argsOf m c)) (fun t _ => flushed_C m c hpay t) cover12

end Cert.KernelCell

end
-- ==== Proof.lean ====
/-
  One recurrent cell on a batch of 32768 rows: a Pallas kernel against its jnp reference.

  Five gates, each a weight of 1024 rows and a bias, meet the concatenation of the input row and the hidden row; three
  pass through the logistic function and two through the hyperbolic tangent; two cell states are renewed as
  f · c + i · g1 and f · C + i · g2; the new hidden row is o · tanh of the renewed states against one more weight, plus
  one more bias. The reference multiplies the concatenated row by the five weights laid side by side, in one product
  over 1024 terms; the kernel cuts every weight into its upper and lower 512 rows on the host and adds two products
  over 512 terms, block of 1024 rows by block. Over the extended reals a sum over 1024 terms is the sum of its two
  halves and zero is neutral, whatever the terms are, the kernel's logistic function is by definition the reference's
  1 / (1 + e^(-z)), and every other operation is the same on both sides: so the three results are equal element by
  element, for all inputs — the finiteness of the inputs is never used.

  Modules: Cell (the cell as one function of the sixteen arrays); Blocks (how the kernel cuts the arrays);
  RegionIdeal / BodyIdeal and RegionBits / BodyBits (the region's run and the frame of the kernel program, read at the
  extended reals and at machine words); BlockCell (what the body stores, read at an index); KernelCell (the input
  blocks are the arrays' pieces, and the output arrays assembled from the 32 blocks written); RefHalves / RefGates /
  RefCell (the reference's operations read index by index); Frames and Algebraic (the claims), assembled here.
-/
import proofs.«134388_j1967095022176_2_alg».proof.Defs
import proofs.«134388_j1967095022176_2_alg».proof.Proof.Frames
import proofs.«134388_j1967095022176_2_alg».proof.Proof.Algebraic
import proofs.«134388_j1967095022176_2_alg».proof.Proof.RefCell
import proofs.«134388_j1967095022176_2_alg».proof.Proof.BlockCell
import proofs.«134388_j1967095022176_2_alg».proof.Proof.KernelCell
import proofs.«134388_j1967095022176_2_alg».proof.Proof.Gen.Kernel
import proofs.«134388_j1967095022176_2_alg».proof.Proof.Gen.Kernel.Skeleton
import proofs.«134388_j1967095022176_2_alg».proof.Proof.Gen.Kernel.Launch
import proofs.«134388_j1967095022176_2_alg».proof.Proof.Gen.Kernel.Points
import proofs.«134388_j1967095022176_2_alg».proof.Proof.Gen.KernelIdeal
import proofs.«134388_j1967095022176_2_alg».proof.Proof.Gen.KernelIdeal.Skeleton
import proofs.«134388_j1967095022176_2_alg».proof.Proof.Gen.KernelIdeal.Launch
import proofs.«134388_j1967095022176_2_alg».proof.Proof.Gen.KernelIdeal.Points
import proofs.«134388_j1967095022176_2_alg».proof.Proof.Gen.ReferenceIdeal
import proofs.«134388_j1967095022176_2_alg».proof.Proof.Gen.Pre_finite_inputs
import proofs.«134388_j1967095022176_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_reference, Frames.preserves,
    Alg.algebraic
      (fun m c => Cert.KernelCell.final_h m c Cert.BlockCell.pay_h)
      (fun m c => Cert.KernelCell.final_c m c Cert.BlockCell.pay_c)
      (fun m c => Cert.KernelCell.final_C m c Cert.BlockCell.pay_C)
      Cert.RefCell.ref_outH Cert.RefCell.ref_outc Cert.RefCell.ref_outC⟩

end Cert.Proof

end
